-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S512x128 .f32) (main_arg6 : FVec F S128 .f32) (main_arg7 : FVec F S256x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg8 main_v33

def fn {F : FTy → Type} [FloatOps F] (main_arg0 : FVec F S50000x512 .f32) (main_arg1 : FVec F S50000x512 .f32) (main_arg2 : IVec S2x800000 32) (main_arg3 : FVec F S512x128 .f32) (main_arg4 : FVec F S128 .f32) (main_arg5 : FVec F S512x128 .f32) (main_arg6 : FVec F S128 .f32) (main_arg7 : FVec F S256x40 .f32) (main_arg8 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x256 : Shape := ⟨2, ![50000, 256]⟩
abbrev S50000x40 : Shape := ⟨2, ![50000, 40]⟩
abbrev S2000x256 : Shape := ⟨2, ![2000, 256]⟩
abbrev S2000x40 : Shape := ⟨2, ![2000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 129
  | .vmem => 15
  | .smem => 0
  | _ => 0

abbrev hbmTy0_0 (i : Nat) : BufTy := match i % 128 with
  | 0 => ⟨S50000x512, .f32⟩
  | 1 => ⟨S50000x512, .f32⟩
  | 2 => ⟨S2x800000, .i32⟩
  | 3 => ⟨S512x128, .f32⟩
  | 4 => ⟨S128, .f32⟩
  | 5 => ⟨S512x128, .f32⟩
  | 6 => ⟨S128, .f32⟩
  | 7 => ⟨S256x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x256, .f32⟩
  | 95 => ⟨S50000x40, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x40, .f32⟩
  | 105 => ⟨S850000x40, .f32⟩
  | 106 => ⟨S850000x40, .f32⟩
  | 107 => ⟨S_, .f32⟩
  | 108 => ⟨S50000x40, .f32⟩
  | 109 => ⟨S850000x1, .i32⟩
  | 110 => ⟨S50000x40, .f32⟩
  | 111 => ⟨S1x40, .f32⟩
  | 112 => ⟨S50000x40, .f32⟩
  | 113 => ⟨S50000x40, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x40, .f32⟩
  | 121 => ⟨S50000x40, .f32⟩
  | 122 => ⟨S50000x40, .f32⟩
  | 123 => ⟨S_, .f32⟩
  | 124 => ⟨S50000, .f32⟩
  | 125 => ⟨S50000x1, .f32⟩
  | 126 => ⟨S50000x1, .f32⟩
  | 127 => ⟨S50000x40, .f32⟩
  | _ => ⟨S50000x512, .f32⟩

abbrev hbmTy0_1 (i : Nat) : BufTy := match i % 128 with
  | 0 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x512, .f32⟩
  | .local _ .vmem, ⟨6, _⟩ => ⟨S2000x512, .f32⟩
  | .local _ .vmem, ⟨7, _⟩ => ⟨S512x128, .f32⟩
  | .local _ .vmem, ⟨8, _⟩ => ⟨S2000x128, .f32⟩
  | .local _ .vmem, ⟨9, _⟩ => ⟨S2000x128, .f32⟩
  | .local _ .vmem, ⟨10, _⟩ => ⟨S2000x256, .f32⟩
  | .local _ .vmem, ⟨11, _⟩ => ⟨S2000x256, .f32⟩
  | .local _ .vmem, ⟨12, _⟩ => ⟨S256x40, .f32⟩
  | .local _ .vmem, ⟨13, _⟩ => ⟨S2000x40, .f32⟩
  | .local _ .vmem, ⟨14, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v82 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x256_S256x40_S2000x40_1_0_0_1_n_n_wf : DotDims.WF S2000x256 S256x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x40.size a ≤ S256x40.size a
  hwx2_1 : ∀ i : grid2.Coords, EltTy.bits .f32 = 32 ∨ (Rect.block (s := S256x40) S256x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x256 : Shape := ⟨2, ![50000, 256]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x512, .f32⟩
  | 1 => ⟨S50000x512, .f32⟩
  | 2 => ⟨S2x800000, .i32⟩
  | 3 => ⟨S512x128, .f32⟩
  | 4 => ⟨S128, .f32⟩
  | 5 => ⟨S512x128, .f32⟩
  | 6 => ⟨S128, .f32⟩
  | 7 => ⟨S256x40, .f32⟩
  | 8 => ⟨S40, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S850000x1, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x256, .f32⟩
  | 95 => ⟨S50000x40, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x40, .f32⟩
  | 105 => ⟨S850000x40, .f32⟩
  | 106 => ⟨S850000x40, .f32⟩
  | 107 => ⟨S_, .f32⟩
  | 108 => ⟨S50000x40, .f32⟩
  | 109 => ⟨S850000x1, .i32⟩
  | 110 => ⟨S50000x40, .f32⟩
  | 111 => ⟨S1x40, .f32⟩
  | 112 => ⟨S50000x40, .f32⟩
  | 113 => ⟨S50000x40, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x40, .f32⟩
  | 121 => ⟨S50000x40, .f32⟩
  | 122 => ⟨S50000x40, .f32⟩
  | 123 => ⟨S_, .f32⟩
  | 124 => ⟨S50000, .f32⟩
  | 125 => ⟨S50000x1, .f32⟩
  | 126 => ⟨S50000x1, .f32⟩
  | 127 => ⟨S50000x40, .f32⟩
  | _ => ⟨S50000x512, .f32⟩

abbrev hbmTy0_1 (i : Nat) : BufTy := match i % 128 with
  | 0 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v82 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The kernel program's run, with its result named.

  The kernel program's @main is thirteen segments: ten stretches of host operations and, among them, the three
  launches of the matrix-product kernel. The buffer contents at the segment boundaries are a fold from the launch
  memory: a stretch of host operations folds its operations' results, a launch leaves its output array at what the
  grid's write-backs leave and every other buffer as it found it. The run below states that every weakly fair execution
  terminates with the RESULT buffer at the last boundary's contents (and the argument arrays as launched); the value
  proof then reads that fold.
-/
import proofs.«127161_j56642028700085_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program's @main terminates, nothing faulting; the result buffer ends at
    the last boundary's contents and the argument arrays end as launched. -/
theorem run_result : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.RunValue

end
-- ==== Proof.RefRun.lean ====
/-
  The reference program's run, read back.

  The reference's @main is a straight line of 120 host operations (the three outlined functions — the select of
  `where`, the two `relu`s and `log_softmax` — listed in place at their call sites). Every weakly fair execution of it
  terminates with each buffer at the fold of the operations' results over the launch contents. The list is cut at the
  three matrix products (`x0 · W1a`, `x1 · W1b`, `h · W2`), because those are the three operations the kernel program
  computes differently: what comes before, between and after them is the same host computation in both programs.
-/
import proofs.«127161_j56642028700085_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Before the first product: the edge list with self-loops (sources, destinations), the in-degrees, their inverse
    square roots, and the per-edge coefficient. -/
abbrev opsA : List (HloOp τ sig (Elt F)) :=
  [ nullary main_v0 (iotaInDim S50000 32 0),
    unary main_arg2 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg2 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)) ]

/-- The first product, `x0 · W1a`. -/
abbrev dot1 : HloOp τ sig (Elt F) :=
  binary main_arg0 main_arg3 main_v31 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F))

/-- Between the first and the second product: gather by source, scale, scatter-add by destination, add the bias,
    relu. -/
abbrev opsB : List (HloOp τ sig (Elt F)) :=
  [ nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x128 ![0, 1] bcast_S850000x1_S850000x128_0_1 : (⟨S850000x1, .f32⟩ : BufTy).Contents (Elt F) → (⟨S850000x128, .f32⟩ : BufTy).Contents (Elt F)),
    binary main_v38 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second product, `x1 · W1b`. -/
abbrev dot2 : HloOp τ sig (Elt F) :=
  binary main_arg1 main_arg5 main_v48 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F))

/-- Between the second and the third product: the same aggregation, then the two halves side by side. -/
abbrev opsC : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v56 (broadcastInDim S850000x128 ![0, 1] bcast_S850000x1_S850000x128_0_1 : (⟨S850000x1, .f32⟩ : BufTy).Contents (Elt F) → (⟨S850000x128, .f32⟩ : BufTy).Contents (Elt F)),
    binary main_v55 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v58 (broadcastInDim S50000x128 ![] bcast_S_S50000x128 : (⟨S_, .f32⟩ : BufTy).Contents (Elt F) → (⟨S50000x128, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v63) (TRef.of (T := ⟨S50000x128, .f32⟩) main_call2_v0) (TRef.of (T := ⟨S50000x128, .f32⟩) main_v64) maximumf,
    binary main_v47 main_v64 main_v65 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

/-- The third product, `h · W2`. -/
abbrev dot3 : HloOp τ sig (Elt F) :=
  binary main_v65 main_arg7 main_v66 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F))

/-- After the third product: the aggregation once more, the bias, and the row-wise log-softmax. -/
abbrev opsD : List (HloOp τ sig (Elt F)) :=
  [ nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v30 main_v74 (broadcastInDim S850000x40 ![0, 1] bcast_S850000x1_S850000x40_0_1 : (⟨S850000x1, .f32⟩ : BufTy).Contents (Elt F) → (⟨S850000x40, .f32⟩ : BufTy).Contents (Elt F)),
    binary main_v73 main_v74 main_v75 (mulf : (⟨S850000x40, .f32⟩ : BufTy).Contents (Elt F) → (⟨S850000x40, .f32⟩ : BufTy).Contents (Elt F) → (⟨S850000x40, .f32⟩ : BufTy).Contents (Elt F)),
    nullary main_cst_14 (constant S_ .f32 0x00000000#32),
    unary main_cst_14 main_v76 (broadcastInDim S50000x40 ![] bcast_S_S50000x40 : (⟨S_, .f32⟩ : BufTy).Contents (Elt F) → (⟨S50000x40, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg8 main_v79 (broadcastInDim S1x40 ![1] bcast_S40_S1x40_1 : (⟨S40, .f32⟩ : BufTy).Contents (Elt F) → (⟨S1x40, .f32⟩ : BufTy).Contents (Elt F)),
    unary main_v79 main_v80 (broadcastInDim S50000x40 ![0, 1] bcast_S1x40_S50000x40_0_1 : (⟨S1x40, .f32⟩ : BufTy).Contents (Elt F) → (⟨S50000x40, .f32⟩ : BufTy).Contents (Elt F)),
    binary main_v78 main_v80 main_v81 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v81) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v81) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v82) subf ]

/-- @main's 120 operations, in order. -/
abbrev ops : List (HloOp τ sig (Elt F)) :=
  [ nullary main_v0 (iotaInDim S50000 32 0),
    unary main_arg2 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg2 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_v29 main_v30 (broadcastInDim S850000x1 ![0] bcast_S850000_S850000x1_0 : (⟨S850000, .f32⟩ : BufTy).Contents (Elt F) → (⟨S850000x1, .f32⟩ : BufTy).Contents (Elt F)),
    binary main_arg0 main_arg3 main_v31 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v39 (broadcastInDim S850000x128 ![0, 1] bcast_S850000x1_S850000x128_0_1 : (⟨S850000x1, .f32⟩ : BufTy).Contents (Elt F) → (⟨S850000x128, .f32⟩ : BufTy).Contents (Elt F)),
    binary main_v38 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_arg1 main_arg5 main_v48 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v56 (broadcastInDim S850000x128 ![0, 1] bcast_S850000x1_S850000x128_0_1 : (⟨S850000x1, .f32⟩ : BufTy).Contents (Elt F) → (⟨S850000x128, .f32⟩ : BufTy).Contents (Elt F)),
    binary main_v55 main_v56 main_v57 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v58 (broadcastInDim S50000x128 ![] bcast_S_S50000x128 : (⟨S_, .f32⟩ : BufTy).Contents (Elt F) → (⟨S50000x128, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v60 main_v62 main_v63 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v63) (TRef.of (T := ⟨S50000x128, .f32⟩) main_call2_v0) (TRef.of (T := ⟨S50000x128, .f32⟩) main_v64) maximumf,
    binary main_v47 main_v64 main_v65 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v65 main_arg7 main_v66 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    nullary main_c_12 (constantI S_ 32 0#32),
    unary main_c_12 main_v67 (broadcastInDim S850000 ![] bcast_S_S850000 : (⟨S_, .i32⟩ : BufTy).Contents (Elt F) → (⟨S850000, .i32⟩ : BufTy).Contents (Elt F)),
    binary main_v3 main_v67 main_v68 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v69 (broadcastInDim S850000 ![] bcast_S_S850000 : (⟨S_, .i32⟩ : BufTy).Contents (Elt F) → (⟨S850000, .i32⟩ : BufTy).Contents (Elt F)),
    binary main_v3 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v3 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v66 main_v72 main_v73 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v30 main_v74 (broadcastInDim S850000x40 ![0, 1] bcast_S850000x1_S850000x40_0_1 : (⟨S850000x1, .f32⟩ : BufTy).Contents (Elt F) → (⟨S850000x40, .f32⟩ : BufTy).Contents (Elt F)),
    binary main_v73 main_v74 main_v75 (mulf : (⟨S850000x40, .f32⟩ : BufTy).Contents (Elt F) → (⟨S850000x40, .f32⟩ : BufTy).Contents (Elt F) → (⟨S850000x40, .f32⟩ : BufTy).Contents (Elt F)),
    nullary main_cst_14 (constant S_ .f32 0x00000000#32),
    unary main_cst_14 main_v76 (broadcastInDim S50000x40 ![] bcast_S_S50000x40 : (⟨S_, .f32⟩ : BufTy).Contents (Elt F) → (⟨S50000x40, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg8 main_v79 (broadcastInDim S1x40 ![1] bcast_S40_S1x40_1 : (⟨S40, .f32⟩ : BufTy).Contents (Elt F) → (⟨S1x40, .f32⟩ : BufTy).Contents (Elt F)),
    unary main_v79 main_v80 (broadcastInDim S50000x40 ![0, 1] bcast_S1x40_S50000x40_0_1 : (⟨S1x40, .f32⟩ : BufTy).Contents (Elt F) → (⟨S50000x40, .f32⟩ : BufTy).Contents (Elt F)),
    binary main_v78 main_v80 main_v81 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v81) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v81) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v82) subf ]

/-- The list is the seven pieces in order. -/
theorem ops_split : (ops : List (HloOp τ sig (Elt F))) = opsA ++ dot1 :: (opsB ++ dot2 :: (opsC ++ dot3 :: opsD)) := rfl

/-- Folding a concatenation is folding its parts one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of the reference's @main terminates, and every final state has each buffer at the
    fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.RefRun

end
-- ==== Proof.RefKept.lean ====
/-
  The reference's host operations write none of the argument arrays: after the whole operation list each argument
  buffer holds what it held before.
-/
import proofs.«127161_j56642028700085_1_alg».proof.Proof.RefRun
import Idealize.ShloMosaic.Lib.StableHlo.Run

set_option maxRecDepth 16384
set_option maxHeartbeats 4000000

noncomputable section

namespace Cert.ReferenceIdeal.RefKept

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

theorem arg0_kept (W : Valuation τ sig (Elt F)) : after ops W (Proc.devRef .tc main_arg0) = W (Proc.devRef .tc main_arg0) := by
  dsimp only [ops]
  after_results_simp

theorem arg1_kept (W : Valuation τ sig (Elt F)) : after ops W (Proc.devRef .tc main_arg1) = W (Proc.devRef .tc main_arg1) := by
  dsimp only [ops]
  after_results_simp

theorem arg2_kept (W : Valuation τ sig (Elt F)) : after ops W (Proc.devRef .tc main_arg2) = W (Proc.devRef .tc main_arg2) := by
  dsimp only [ops]
  after_results_simp

theorem arg3_kept (W : Valuation τ sig (Elt F)) : after ops W (Proc.devRef .tc main_arg3) = W (Proc.devRef .tc main_arg3) := by
  dsimp only [ops]
  after_results_simp

theorem arg4_kept (W : Valuation τ sig (Elt F)) : after ops W (Proc.devRef .tc main_arg4) = W (Proc.devRef .tc main_arg4) := by
  dsimp only [ops]
  after_results_simp

theorem arg5_kept (W : Valuation τ sig (Elt F)) : after ops W (Proc.devRef .tc main_arg5) = W (Proc.devRef .tc main_arg5) := by
  dsimp only [ops]
  after_results_simp

theorem arg6_kept (W : Valuation τ sig (Elt F)) : after ops W (Proc.devRef .tc main_arg6) = W (Proc.devRef .tc main_arg6) := by
  dsimp only [ops]
  after_results_simp

theorem arg7_kept (W : Valuation τ sig (Elt F)) : after ops W (Proc.devRef .tc main_arg7) = W (Proc.devRef .tc main_arg7) := by
  dsimp only [ops]
  after_results_simp

theorem arg8_kept (W : Valuation τ sig (Elt F)) : after ops W (Proc.devRef .tc main_arg8) = W (Proc.devRef .tc main_arg8) := by
  dsimp only [ops]
  after_results_simp

end Cert.ReferenceIdeal.RefKept

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Product.lean ====
/-
  The product of two matrices, index by index.

  `rowsByCols a w` is the `[n, h]` array whose entry `(e, q)` is the sum over `k` of `a (e, k) · w (k, q)`, on the
  extended reals. The sum is over a finite index set and is taken in the commutative monoid of the extended reals, so it
  does not depend on an order or a grouping, and it asks nothing of its terms (no finiteness).
-/
import Idealize.ShloMosaic.PureOps.Ideal
import Idealize.ShloMosaic.Lib.ValueIdx

namespace Idealize.ShloMosaic.ValueIdx

/-- Rows times columns: entry `(e, q)` is `∑ k, a (e, k) · w (k, q)`. -/
noncomputable def rowsByCols {n K h : Nat} (a : FVec Ideal ⟨2, ![n, K]⟩ .f32) (w : FVec Ideal ⟨2, ![K, h]⟩ .f32) :
    FVec Ideal ⟨2, ![n, h]⟩ .f32 :=
  fun i => ∑ k : Fin K, a (ix2 (i 0) k) * w (ix2 k (i 1))

/-- At an index given by its coordinates. -/
theorem rowsByCols_ix2 {n K h : Nat} (a : FVec Ideal ⟨2, ![n, K]⟩ .f32) (w : FVec Ideal ⟨2, ![K, h]⟩ .f32)
    (e : Fin n) (q : Fin h) : rowsByCols a w (ix2 e q) = ∑ k : Fin K, a (ix2 e k) * w (ix2 k q) := rfl

end Idealize.ShloMosaic.ValueIdx
-- ==== Proof.RefDot.lean ====
/-
  The reference's three matrix products are rows times columns.

  On the extended reals the host's `dot_general` with one contracted axis (the left operand's columns against the right
  operand's rows, no batch axis) is, at `(e, q)`, the sum over `k` of `left (e, k) · right (k, q)`: the same function
  the kernel's launches leave in their output arrays.
-/
import proofs.«127161_j56642028700085_1_alg».proof.ReferenceIdeal
import proofs.«127161_j56642028700085_1_alg».proof.Proof.Gen.ReferenceIdeal
import proofs.«127161_j56642028700085_1_alg».proof.Proof.LibDense
import proofs.«127161_j56642028700085_1_alg».proof.Proof.Product
import Idealize.ShloMosaic.PureOps.Ideal.Laws
import Idealize.ShloMosaic.Lib.ValueIdx

set_option maxRecDepth 16384

noncomputable section

namespace Cert.ReferenceIdeal.RefDot

open Cert.ReferenceIdeal Cert.ReferenceIdeal.Gen Idealize.ShloMosaic Idealize.ShloMosaic.TcCoe Idealize.ShloMosaic.ValueIdx

/-! ## The `[50000, 512] × [512, 128]` product -/

theorem lhs0_512 (i : S50000x128.Idx) (p : dot_S50000x512_S512x128_S50000x128_1_0_0_1_n_n.contr.Idx) : (dot_S50000x512_S512x128_S50000x128_1_0_0_1_n_n.lhsIdx i p 0).val = (i 0).val := by
  unfold DotDims.lhsIdx
  rw [dif_neg (show ¬(0 : Fin S50000x512.rank) ∈ dot_S50000x512_S512x128_S50000x128_1_0_0_1_n_n.lhsBatch by decide), dif_pos (show (0 : Fin S50000x512.rank) ∈ dot_S50000x512_S512x128_S50000x128_1_0_0_1_n_n.lhsNonContracting by decide)]
  rfl
theorem lhs1_512 (i : S50000x128.Idx) (p : dot_S50000x512_S512x128_S50000x128_1_0_0_1_n_n.contr.Idx) : (dot_S50000x512_S512x128_S50000x128_1_0_0_1_n_n.lhsIdx i p 1).val = (p ⟨0, by decide⟩).val :=
  dot_S50000x512_S512x128_S50000x128_1_0_0_1_n_n.lhsIdx_val_of_single rfl i p
theorem rhs0_512 (i : S50000x128.Idx) (p : dot_S50000x512_S512x128_S50000x128_1_0_0_1_n_n.contr.Idx) : (dot_S50000x512_S512x128_S50000x128_1_0_0_1_n_n.rhsIdx i p 0).val = (p ⟨0, by decide⟩).val :=
  dot_S50000x512_S512x128_S50000x128_1_0_0_1_n_n.rhsIdx_val_of_single rfl i p
theorem rhs1_512 (i : S50000x128.Idx) (p : dot_S50000x512_S512x128_S50000x128_1_0_0_1_n_n.contr.Idx) : (dot_S50000x512_S512x128_S50000x128_1_0_0_1_n_n.rhsIdx i p 1).val = (i 1).val := by
  unfold DotDims.rhsIdx
  rw [dif_neg (show ¬(1 : Fin S512x128.rank) ∈ dot_S50000x512_S512x128_S50000x128_1_0_0_1_n_n.rhsBatch by decide), dif_pos (show (1 : Fin S512x128.rank) ∈ dot_S50000x512_S512x128_S50000x128_1_0_0_1_n_n.rhsNonContracting by decide)]
  rfl

/-- The host's product of an `[50000, 512]` array and a `[512, 128]` array is rows times columns. -/
theorem dot_512 (a : FVec Ideal S50000x512 .f32) (w : FVec Ideal S512x128 .f32) :
    (Host.dotGeneral (F := Ideal) (φ₁ := .f32) (φ₂ := .f32) dot_S50000x512_S512x128_S50000x128_1_0_0_1_n_n none a w : (⟨S50000x128, .f32⟩ : BufTy).Contents (Elt Ideal))
      = rowsByCols (n := 50000) (K := 512) (h := 128) a w := by
  funext i
  obtain ⟨e, q, rfl⟩ : ∃ (e : Fin 50000) (q : Fin 128), i = ix2 e q := ⟨i 0, i 1, eq_ix2 i⟩
  simp only [Host.dotGeneral]
  exact dotGeneral_plain_apply (n := 50000) (K := 512) (h := 128) dot_S50000x512_S512x128_S50000x128_1_0_0_1_n_n none _ rfl rfl lhs0_512 lhs1_512 rhs0_512 rhs1_512 a w e q

/-! ## The `[50000, 256] × [256, 40]` product -/

theorem lhs0_256 (i : S50000x40.Idx) (p : dot_S50000x256_S256x40_S50000x40_1_0_0_1_n_n.contr.Idx) : (dot_S50000x256_S256x40_S50000x40_1_0_0_1_n_n.lhsIdx i p 0).val = (i 0).val := by
  unfold DotDims.lhsIdx
  rw [dif_neg (show ¬(0 : Fin S50000x256.rank) ∈ dot_S50000x256_S256x40_S50000x40_1_0_0_1_n_n.lhsBatch by decide), dif_pos (show (0 : Fin S50000x256.rank) ∈ dot_S50000x256_S256x40_S50000x40_1_0_0_1_n_n.lhsNonContracting by decide)]
  rfl
theorem lhs1_256 (i : S50000x40.Idx) (p : dot_S50000x256_S256x40_S50000x40_1_0_0_1_n_n.contr.Idx) : (dot_S50000x256_S256x40_S50000x40_1_0_0_1_n_n.lhsIdx i p 1).val = (p ⟨0, by decide⟩).val :=
  dot_S50000x256_S256x40_S50000x40_1_0_0_1_n_n.lhsIdx_val_of_single rfl i p
theorem rhs0_256 (i : S50000x40.Idx) (p : dot_S50000x256_S256x40_S50000x40_1_0_0_1_n_n.contr.Idx) : (dot_S50000x256_S256x40_S50000x40_1_0_0_1_n_n.rhsIdx i p 0).val = (p ⟨0, by decide⟩).val :=
  dot_S50000x256_S256x40_S50000x40_1_0_0_1_n_n.rhsIdx_val_of_single rfl i p
theorem rhs1_256 (i : S50000x40.Idx) (p : dot_S50000x256_S256x40_S50000x40_1_0_0_1_n_n.contr.Idx) : (dot_S50000x256_S256x40_S50000x40_1_0_0_1_n_n.rhsIdx i p 1).val = (i 1).val := by
  unfold DotDims.rhsIdx
  rw [dif_neg (show ¬(1 : Fin S256x40.rank) ∈ dot_S50000x256_S256x40_S50000x40_1_0_0_1_n_n.rhsBatch by decide), dif_pos (show (1 : Fin S256x40.rank) ∈ dot_S50000x256_S256x40_S50000x40_1_0_0_1_n_n.rhsNonContracting by decide)]
  rfl

/-- The host's product of an `[50000, 256]` array and a `[256, 40]` array is rows times columns. -/
theorem dot_256 (a : FVec Ideal S50000x256 .f32) (w : FVec Ideal S256x40 .f32) :
    (Host.dotGeneral (F := Ideal) (φ₁ := .f32) (φ₂ := .f32) dot_S50000x256_S256x40_S50000x40_1_0_0_1_n_n none a w : (⟨S50000x40, .f32⟩ : BufTy).Contents (Elt Ideal))
      = rowsByCols (n := 50000) (K := 256) (h := 40) a w := by
  funext i
  obtain ⟨e, q, rfl⟩ : ∃ (e : Fin 50000) (q : Fin 40), i = ix2 e q := ⟨i 0, i 1, eq_ix2 i⟩
  simp only [Host.dotGeneral]
  exact dotGeneral_plain_apply (n := 50000) (K := 256) (h := 40) dot_S50000x256_S256x40_S50000x40_1_0_0_1_n_n none _ rfl rfl lhs0_256 lhs1_256 rhs0_256 rhs1_256 a w e q

end Cert.ReferenceIdeal.RefDot

end
-- ==== Proof.Region0.lean ====
/-
  What launch 0 of the matrix-product kernel leaves in its output array: the whole product x0 · W1a.

  The grid has 25 points. Point `t` fetches rows `2000·t … 2000·t + 1999` of the left operand (all 512 columns) and
  the whole right operand, multiplies them into a zero accumulator, and writes the `2000 × 128` result back to the same
  rows of the output. On the extended reals the rounding of the operands to a shorter format is the identity and the
  product into zero is the plain sum over the contraction index, so block `t` of the output is block `t` of
  `rowsByCols` of the two arrays as the launch finds them; the 25 blocks tile the 50000 rows (row `r` is in block
  `r / 2000`), so the output array ends as that product everywhere.
-/
import proofs.«127161_j56642028700085_1_alg».proof.Proof.Gen.KernelIdeal.Frame
import proofs.«127161_j56642028700085_1_alg».proof.Proof.LibDense
import proofs.«127161_j56642028700085_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Where the kernel's product reads its operands -/

theorem lhs0 (i : S2000x128.Idx) (p : dot_S2000x512_S512x128_S2000x128_1_0_0_1_n_n.contr.Idx) : (dot_S2000x512_S512x128_S2000x128_1_0_0_1_n_n.lhsIdx i p 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs1 (i : S2000x128.Idx) (p : dot_S2000x512_S512x128_S2000x128_1_0_0_1_n_n.contr.Idx) : (dot_S2000x512_S512x128_S2000x128_1_0_0_1_n_n.lhsIdx i p 1).val = (p ⟨0, by decide⟩).val :=
  dot_S2000x512_S512x128_S2000x128_1_0_0_1_n_n.lhsIdx_val_of_single rfl i p
theorem rhs0 (i : S2000x128.Idx) (p : dot_S2000x512_S512x128_S2000x128_1_0_0_1_n_n.contr.Idx) : (dot_S2000x512_S512x128_S2000x128_1_0_0_1_n_n.rhsIdx i p 0).val = (p ⟨0, by decide⟩).val :=
  dot_S2000x512_S512x128_S2000x128_1_0_0_1_n_n.rhsIdx_val_of_single rfl i p
theorem rhs1 (i : S2000x128.Idx) (p : dot_S2000x512_S512x128_S2000x128_1_0_0_1_n_n.contr.Idx) : (dot_S2000x512_S512x128_S2000x128_1_0_0_1_n_n.rhsIdx i p 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The body's one stored value at `(e, q)`: the sum over `k` of the left block's `(e, k)` times the right block's
    `(k, q)`. -/
theorem stored_apply (x0 : Vec Ideal S2000x512 .f32) (x1 : Vec Ideal S512x128 .f32) (e : Fin 2000) (q : Fin 128) :
    k0_pay1 x0 x1 (ix2 e q) = ∑ k : Fin 512, x0 (ix2 e k) * x1 (ix2 k q) := by
  unfold k0_pay1
  exact matmul_zero_plain_apply (n := 2000) (K := 512) (h := 128) dot_S2000x512_S512x128_S2000x128_1_0_0_1_n_n none rfl rfl lhs0 lhs1 rhs0 rhs1
    (truncf .bf16 x0 bitsLt_bf16_f32) (truncf .bf16 x1 bitsLt_bf16_f32) e q

/-! ## The blocks -/

/-- The printed index maps over the grid: the left operand's block moves down with the output's, one block of rows per
    point; its columns, and the right operand, stay at block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product of the two arrays as the launch finds them. -/
theorem flushed_eq (c : Dev nD) (t : Fin cfg0.N) :
    (dat0 V c).flushed 2 t = ((cfg0.win 2).blk t).view.read (Elt Ideal)
      (rowsByCols (n := 50000) (K := 512) (h := 128) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4⟩ := idx_facts t
  funext j
  obtain ⟨e, q, rfl⟩ : ∃ (e : Fin 2000) (q : Fin 128), j = ix2 e q := ⟨j 0, j 1, eq_ix2 j⟩
  show k0_pay1 (iblk0 V c 0 t) (iblk0 V c 1 t) (ix2 e q)
    = rowsByCols (n := 50000) (K := 512) (h := 128) (V c main_arg0) (V c main_arg3) (((cfg0.win 2).blk t).view.emb (ix2 e q))
  refine (stored_apply (iblk0 V c 0 t) (iblk0 V c 1 t) e q).trans ?_
  refine Finset.sum_congr rfl fun k _ => ?_
  have hx : iblk0 V c 0 t (ix2 e k) = V c main_arg0 (ix2 ((((cfg0.win 2).blk t).view.emb (ix2 e q)) 0) k) := by
    show V c main_arg0 (((cfg0.win 0).blk t).view.emb (ix2 e k)) = _
    refine congrArg (V c main_arg0) ?_
    funext a; apply Fin.ext
    match a with
    | ⟨0, _⟩ => show win0_0.index t (0 : Fin 2) * 2000 + 1 * e.val = win0_2.index t (0 : Fin 2) * 2000 + 1 * e.val; omega
    | ⟨1, _⟩ => show win0_0.index t (1 : Fin 2) * 512 + 1 * k.val = k.val; omega
  have hw : iblk0 V c 1 t (ix2 k q) = V c main_arg3 (ix2 k ((((cfg0.win 2).blk t).view.emb (ix2 e q)) 1)) := by
    show V c main_arg3 (((cfg0.win 1).blk t).view.emb (ix2 k q)) = _
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  rw [hx, hw]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Every index of the output array is in some point's block: row `r` is in block `r / 2000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE OUTPUT ARRAY after the launch: the whole product of the two operand arrays as the launch finds them. -/
theorem array_eq (c : Dev nD) :
    (dat0 V c).arrAt 2 cfg0.N = rowsByCols (n := 50000) (K := 512) (h := 128) (V c main_arg0) (V c main_arg3) :=
  (dat0 V c).arrAt_eq_of_cover 2 _ (fun t _ => flushed_eq V c t) cover

end Cert.KernelIdeal.Region0

end
-- ==== Proof.Region1.lean ====
/-
  What launch 1 of the matrix-product kernel leaves in its output array: the whole product x1 · W1b.

  The grid has 25 points. Point `t` fetches rows `2000·t … 2000·t + 1999` of the left operand (all 512 columns) and
  the whole right operand, multiplies them into a zero accumulator, and writes the `2000 × 128` result back to the same
  rows of the output. On the extended reals the rounding of the operands to a shorter format is the identity and the
  product into zero is the plain sum over the contraction index, so block `t` of the output is block `t` of
  `rowsByCols` of the two arrays as the launch finds them; the 25 blocks tile the 50000 rows (row `r` is in block
  `r / 2000`), so the output array ends as that product everywhere.
-/
import proofs.«127161_j56642028700085_1_alg».proof.Proof.Gen.KernelIdeal.Frame
import proofs.«127161_j56642028700085_1_alg».proof.Proof.LibDense
import proofs.«127161_j56642028700085_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Where the kernel's product reads its operands -/

theorem lhs0 (i : S2000x128.Idx) (p : dot_S2000x512_S512x128_S2000x128_1_0_0_1_n_n.contr.Idx) : (dot_S2000x512_S512x128_S2000x128_1_0_0_1_n_n.lhsIdx i p 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs1 (i : S2000x128.Idx) (p : dot_S2000x512_S512x128_S2000x128_1_0_0_1_n_n.contr.Idx) : (dot_S2000x512_S512x128_S2000x128_1_0_0_1_n_n.lhsIdx i p 1).val = (p ⟨0, by decide⟩).val :=
  dot_S2000x512_S512x128_S2000x128_1_0_0_1_n_n.lhsIdx_val_of_single rfl i p
theorem rhs0 (i : S2000x128.Idx) (p : dot_S2000x512_S512x128_S2000x128_1_0_0_1_n_n.contr.Idx) : (dot_S2000x512_S512x128_S2000x128_1_0_0_1_n_n.rhsIdx i p 0).val = (p ⟨0, by decide⟩).val :=
  dot_S2000x512_S512x128_S2000x128_1_0_0_1_n_n.rhsIdx_val_of_single rfl i p
theorem rhs1 (i : S2000x128.Idx) (p : dot_S2000x512_S512x128_S2000x128_1_0_0_1_n_n.contr.Idx) : (dot_S2000x512_S512x128_S2000x128_1_0_0_1_n_n.rhsIdx i p 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The body's one stored value at `(e, q)`: the sum over `k` of the left block's `(e, k)` times the right block's
    `(k, q)`. -/
theorem stored_apply (x0 : Vec Ideal S2000x512 .f32) (x1 : Vec Ideal S512x128 .f32) (e : Fin 2000) (q : Fin 128) :
    k1_pay1 x0 x1 (ix2 e q) = ∑ k : Fin 512, x0 (ix2 e k) * x1 (ix2 k q) := by
  unfold k1_pay1
  exact matmul_zero_plain_apply (n := 2000) (K := 512) (h := 128) dot_S2000x512_S512x128_S2000x128_1_0_0_1_n_n none rfl rfl lhs0 lhs1 rhs0 rhs1
    (truncf .bf16 x0 bitsLt_bf16_f32) (truncf .bf16 x1 bitsLt_bf16_f32) e q

/-! ## The blocks -/

/-- The printed index maps over the grid: the left operand's block moves down with the output's, one block of rows per
    point; its columns, and the right operand, stay at block 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the 25 row blocks is some point's. -/
theorem idx_onto : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of the whole product of the two arrays as the launch finds them. -/
theorem flushed_eq (c : Dev nD) (t : Fin cfg1.N) :
    (dat1 V c).flushed 2 t = ((cfg1.win 2).blk t).view.read (Elt Ideal)
      (rowsByCols (n := 50000) (K := 512) (h := 128) (V c main_arg1) (V c main_arg5)) := by
  show (cfg1.win 2).cut (grid1.coords t) ((dat1 V c).after 2 t) = _
  rw [after1_2]
  unfold out1_2
  rw [View.canon_unit_zero hz]
  simp only [View.ld_unit_zero (S := S2000x512) hz, View.ld_unit_zero (S := S512x128) hz]
  obtain ⟨e0, e1, e2, e3, e4⟩ := idx_facts t
  funext j
  obtain ⟨e, q, rfl⟩ : ∃ (e : Fin 2000) (q : Fin 128), j = ix2 e q := ⟨j 0, j 1, eq_ix2 j⟩
  show k1_pay1 (iblk1 V c 0 t) (iblk1 V c 1 t) (ix2 e q)
    = rowsByCols (n := 50000) (K := 512) (h := 128) (V c main_arg1) (V c main_arg5) (((cfg1.win 2).blk t).view.emb (ix2 e q))
  refine (stored_apply (iblk1 V c 0 t) (iblk1 V c 1 t) e q).trans ?_
  refine Finset.sum_congr rfl fun k _ => ?_
  have hx : iblk1 V c 0 t (ix2 e k) = V c main_arg1 (ix2 ((((cfg1.win 2).blk t).view.emb (ix2 e q)) 0) k) := by
    show V c main_arg1 (((cfg1.win 0).blk t).view.emb (ix2 e k)) = _
    refine congrArg (V c main_arg1) ?_
    funext a; apply Fin.ext
    match a with
    | ⟨0, _⟩ => show win1_0.index t (0 : Fin 2) * 2000 + 1 * e.val = win1_2.index t (0 : Fin 2) * 2000 + 1 * e.val; omega
    | ⟨1, _⟩ => show win1_0.index t (1 : Fin 2) * 512 + 1 * k.val = k.val; omega
  have hw : iblk1 V c 1 t (ix2 k q) = V c main_arg5 (ix2 k ((((cfg1.win 2).blk t).view.emb (ix2 e q)) 1)) := by
    show V c main_arg5 (((cfg1.win 1).blk t).view.emb (ix2 k q)) = _
    refine congrArg (V c main_arg5) ?_
    funext a; apply Fin.ext
    match a with
    | ⟨0, _⟩ => show win1_1.index t (0 : Fin 2) * 512 + 1 * k.val = k.val; omega
    | ⟨1, _⟩ => show win1_1.index t (1 : Fin 2) * 128 + 1 * q.val = win1_2.index t (1 : Fin 2) * 128 + 1 * q.val; omega
  rw [hx, hw]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- Every index of the output array is in some point's block: row `r` is in block `r / 2000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE OUTPUT ARRAY after the launch: the whole product of the two operand arrays as the launch finds them. -/
theorem array_eq (c : Dev nD) :
    (dat1 V c).arrAt 2 cfg1.N = rowsByCols (n := 50000) (K := 512) (h := 128) (V c main_arg1) (V c main_arg5) :=
  (dat1 V c).arrAt_eq_of_cover 2 _ (fun t _ => flushed_eq V c t) cover

end Cert.KernelIdeal.Region1

end
-- ==== Proof.Region2.lean ====
/-
  What launch 2 of the matrix-product kernel leaves in its output array: the whole product h · W2.

  The grid has 25 points. Point `t` fetches rows `2000·t … 2000·t + 1999` of the left operand (all 256 columns) and
  the whole right operand, multiplies them into a zero accumulator, and writes the `2000 × 40` result back to the same
  rows of the output. On the extended reals the rounding of the operands to a shorter format is the identity and the
  product into zero is the plain sum over the contraction index, so block `t` of the output is block `t` of
  `rowsByCols` of the two arrays as the launch finds them; the 25 blocks tile the 50000 rows (row `r` is in block
  `r / 2000`), so the output array ends as that product everywhere.
-/
import proofs.«127161_j56642028700085_1_alg».proof.Proof.Gen.KernelIdeal.Frame
import proofs.«127161_j56642028700085_1_alg».proof.Proof.LibDense
import proofs.«127161_j56642028700085_1_alg».proof.Proof.Product
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Where the kernel's product reads its operands -/

theorem lhs0 (i : S2000x40.Idx) (p : dot_S2000x256_S256x40_S2000x40_1_0_0_1_n_n.contr.Idx) : (dot_S2000x256_S256x40_S2000x40_1_0_0_1_n_n.lhsIdx i p 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem lhs1 (i : S2000x40.Idx) (p : dot_S2000x256_S256x40_S2000x40_1_0_0_1_n_n.contr.Idx) : (dot_S2000x256_S256x40_S2000x40_1_0_0_1_n_n.lhsIdx i p 1).val = (p ⟨0, by decide⟩).val :=
  dot_S2000x256_S256x40_S2000x40_1_0_0_1_n_n.lhsIdx_val_of_single rfl i p
theorem rhs0 (i : S2000x40.Idx) (p : dot_S2000x256_S256x40_S2000x40_1_0_0_1_n_n.contr.Idx) : (dot_S2000x256_S256x40_S2000x40_1_0_0_1_n_n.rhsIdx i p 0).val = (p ⟨0, by decide⟩).val :=
  dot_S2000x256_S256x40_S2000x40_1_0_0_1_n_n.rhsIdx_val_of_single rfl i p
theorem rhs1 (i : S2000x40.Idx) (p : dot_S2000x256_S256x40_S2000x40_1_0_0_1_n_n.contr.Idx) : (dot_S2000x256_S256x40_S2000x40_1_0_0_1_n_n.rhsIdx i p 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- The body's one stored value at `(e, q)`: the sum over `k` of the left block's `(e, k)` times the right block's
    `(k, q)`. -/
theorem stored_apply (x0 : Vec Ideal S2000x256 .f32) (x1 : Vec Ideal S256x40 .f32) (e : Fin 2000) (q : Fin 40) :
    k2_pay1 x0 x1 (ix2 e q) = ∑ k : Fin 256, x0 (ix2 e k) * x1 (ix2 k q) := by
  unfold k2_pay1
  refine (matmul_zero_plain_apply (n := 2000) (K := 256) (h := 40) dot_S2000x256_S256x40_S2000x40_1_0_0_1_n_n none rfl rfl lhs0 lhs1 rhs0 rhs1
    (truncf .bf16 (shapeCast S2000x256 x0 shapeCasts_S2000x256_S2000x256) bitsLt_bf16_f32) (truncf .bf16 x1 bitsLt_bf16_f32) e q).trans ?_
  -- the body re-casts the left block to its own shape first: the identity
  rw [shapeCast_self x0 shapeCasts_S2000x256_S2000x256]
  rfl

/-! ## The blocks -/

/-- The printed index maps over the grid: the left operand's block moves down with the output's, one block of rows per
    point; its columns, and the right operand, stay at block 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 25 row blocks is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is block `t` of the whole product of the two arrays as the launch finds them. -/
theorem flushed_eq (c : Dev nD) (t : Fin cfg2.N) :
    (dat2 V c).flushed 2 t = ((cfg2.win 2).blk t).view.read (Elt Ideal)
      (rowsByCols (n := 50000) (K := 256) (h := 40) (V c main_v65) (V c main_arg7)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x40) hz]
  obtain ⟨e0, e1, e2, e3, e4⟩ := idx_facts t
  funext j
  obtain ⟨e, q, rfl⟩ : ∃ (e : Fin 2000) (q : Fin 40), j = ix2 e q := ⟨j 0, j 1, eq_ix2 j⟩
  show k2_pay1 (iblk2 V c 0 t) (iblk2 V c 1 t) (ix2 e q)
    = rowsByCols (n := 50000) (K := 256) (h := 40) (V c main_v65) (V c main_arg7) (((cfg2.win 2).blk t).view.emb (ix2 e q))
  refine (stored_apply (iblk2 V c 0 t) (iblk2 V c 1 t) e q).trans ?_
  refine Finset.sum_congr rfl fun k _ => ?_
  have hx : iblk2 V c 0 t (ix2 e k) = V c main_v65 (ix2 ((((cfg2.win 2).blk t).view.emb (ix2 e q)) 0) k) := by
    show V c main_v65 (((cfg2.win 0).blk t).view.emb (ix2 e k)) = _
    refine congrArg (V c main_v65) ?_
    funext a; apply Fin.ext
    match a with
    | ⟨0, _⟩ => show win2_0.index t (0 : Fin 2) * 2000 + 1 * e.val = win2_2.index t (0 : Fin 2) * 2000 + 1 * e.val; omega
    | ⟨1, _⟩ => show win2_0.index t (1 : Fin 2) * 256 + 1 * k.val = k.val; omega
  have hw : iblk2 V c 1 t (ix2 k q) = V c main_arg7 (ix2 k ((((cfg2.win 2).blk t).view.emb (ix2 e q)) 1)) := by
    show V c main_arg7 (((cfg2.win 1).blk t).view.emb (ix2 k q)) = _
    refine congrArg (V c main_arg7) ?_
    funext a; apply Fin.ext
    match a with
    | ⟨0, _⟩ => show win2_1.index t (0 : Fin 2) * 256 + 1 * k.val = k.val; omega
    | ⟨1, _⟩ => show win2_1.index t (1 : Fin 2) * 40 + 1 * q.val = win2_2.index t (1 : Fin 2) * 40 + 1 * q.val; omega
  rw [hx, hw]

/-- An index of the output array is in point `t`'s block iff each coordinate is in the block's range on its axis. -/
theorem mem_blk (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v66).slice (win2_2.rect t)).set ↔ _
  rw [View.set_slice_whole, Rect.mem_set_unit]
  exact Iff.rfl

/-- Every index of the output array is in some point's block: row `r` is in block `r / 2000`. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- THE OUTPUT ARRAY after the launch: the whole product of the two operand arrays as the launch finds them. -/
theorem array_eq (c : Dev nD) :
    (dat2 V c).arrAt 2 cfg2.N = rowsByCols (n := 50000) (K := 256) (h := 40) (V c main_v65) (V c main_arg7) :=
  (dat2 V c).arrAt_eq_of_cover 2 _ (fun t _ => flushed_eq V c t) cover

end Cert.KernelIdeal.Region2

end
-- ==== Proof.LibConcatPair.lean ====
/-
  A concatenation of two arrays, with the two arrays as plain arguments.

  `concatenate t a xs h` takes its operands as a LIST of (shape, array) pairs, and its side condition `h` speaks of
  that list's shapes. A rewrite inside the list would change the type of `h`, so a simplifier cannot rewrite an
  operand in place. `concat2` is the two-operand case with the operands moved out of the list: its side condition
  speaks of the two shapes only, and the two arrays are ordinary arguments, which can be rewritten. `concatenate_pair`
  says the two are the same function (by definition); `after_results_pairs` is the one-pass reading of a stretch of host
  operations that also opens such concatenations, so that what is read THROUGH a concatenation's operands is read too.
-/
import Idealize.ShloMosaic.PureOps.ShapeOps
import Idealize.ShloMosaic.Lib.StableHlo.Run

namespace Idealize.ShloMosaic

/-- The concatenation of `x : s₁` and `y : s₂` along axis `a` of `t`. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-operand `concatenate` is `concat2` of its operands. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ h x y := rfl

namespace StableHlo

/-- A stretch of host operations read at a buffer, in one simplifier pass, two-operand concatenations opened. -/
macro "after_results_pairs" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair]))

end StableHlo

end Idealize.ShloMosaic
-- ==== Proof.StageA.lean ====
/-
  One stretch of host operations, in both programs: the edge list with self-loops, the in-degrees' inverse square roots and the per-edge coefficient.

  The kernel program and the reference run the same host operations here, on buffers named alike. So if the two
  programs' buffer contents agree, before the stretch, on the buffers a result depends on, they agree on that result
  after it — whatever the operations are: nothing about them is used beyond their being the same. A buffer the stretch
  does not write keeps its contents in both.
-/
import proofs.«127161_j56642028700085_1_alg».proof.Proof.Gen.KernelIdeal.Launch
import proofs.«127161_j56642028700085_1_alg».proof.Proof.RefRun
import Idealize.ShloMosaic.Lib.StableHlo.Run
import proofs.«127161_j56642028700085_1_alg».proof.Proof.LibConcatPair

set_option maxRecDepth 16384
set_option maxHeartbeats 4000000

noncomputable section

namespace Cert.Bridge.StageA

open Idealize.ShloMosaic Idealize.ShloMosaic.TcCoe Idealize.SL.Sem Idealize.ShloMosaic.StableHlo

variable {F : FTy → Type} [FloatOps F]

/-- Buffer `v3` after the stretch depends on `arg2` only, and by the same operations in both programs. -/
theorem v3_eq (WK : Valuation Cert.KernelIdeal.τ Cert.KernelIdeal.sig (Elt F)) (WR : Valuation Cert.ReferenceIdeal.τ Cert.ReferenceIdeal.sig (Elt F))
    (h_arg2 : (WK (Proc.devRef .tc Cert.KernelIdeal.main_arg2) : (⟨Cert.KernelIdeal.S2x800000, .i32⟩ : BufTy).Contents (Elt F)) = WR (Proc.devRef .tc Cert.ReferenceIdeal.main_arg2)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_v3) : (⟨Cert.KernelIdeal.S850000, .i32⟩ : BufTy).Contents (Elt F))
      = StableHlo.after Cert.ReferenceIdeal.RefRun.opsA WR (Proc.devRef .tc Cert.ReferenceIdeal.main_v3) := by
  dsimp only [Cert.KernelIdeal.Gen.hostOps0, Cert.KernelIdeal.Gen.hostOps0_1, Cert.KernelIdeal.Gen.hostOps0_2, Cert.ReferenceIdeal.RefRun.opsA]
  after_results_pairs
  simp only [h_arg2]
  try rfl

/-- Buffer `v6` after the stretch depends on `arg2` only, and by the same operations in both programs. -/
theorem v6_eq (WK : Valuation Cert.KernelIdeal.τ Cert.KernelIdeal.sig (Elt F)) (WR : Valuation Cert.ReferenceIdeal.τ Cert.ReferenceIdeal.sig (Elt F))
    (h_arg2 : (WK (Proc.devRef .tc Cert.KernelIdeal.main_arg2) : (⟨Cert.KernelIdeal.S2x800000, .i32⟩ : BufTy).Contents (Elt F)) = WR (Proc.devRef .tc Cert.ReferenceIdeal.main_arg2)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_v6) : (⟨Cert.KernelIdeal.S850000, .i32⟩ : BufTy).Contents (Elt F))
      = StableHlo.after Cert.ReferenceIdeal.RefRun.opsA WR (Proc.devRef .tc Cert.ReferenceIdeal.main_v6) := by
  dsimp only [Cert.KernelIdeal.Gen.hostOps0, Cert.KernelIdeal.Gen.hostOps0_1, Cert.KernelIdeal.Gen.hostOps0_2, Cert.ReferenceIdeal.RefRun.opsA]
  after_results_pairs
  simp only [h_arg2]
  try rfl

/-- Buffer `v30` after the stretch depends on `arg2` only, and by the same operations in both programs. -/
theorem v30_eq (WK : Valuation Cert.KernelIdeal.τ Cert.KernelIdeal.sig (Elt F)) (WR : Valuation Cert.ReferenceIdeal.τ Cert.ReferenceIdeal.sig (Elt F))
    (h_arg2 : (WK (Proc.devRef .tc Cert.KernelIdeal.main_arg2) : (⟨Cert.KernelIdeal.S2x800000, .i32⟩ : BufTy).Contents (Elt F)) = WR (Proc.devRef .tc Cert.ReferenceIdeal.main_arg2)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_v30) : (⟨Cert.KernelIdeal.S850000x1, .f32⟩ : BufTy).Contents (Elt F))
      = StableHlo.after Cert.ReferenceIdeal.RefRun.opsA WR (Proc.devRef .tc Cert.ReferenceIdeal.main_v30) := by
  dsimp only [Cert.KernelIdeal.Gen.hostOps0, Cert.KernelIdeal.Gen.hostOps0_1, Cert.KernelIdeal.Gen.hostOps0_2, Cert.ReferenceIdeal.RefRun.opsA]
  after_results_pairs
  simp only [h_arg2]
  try rfl

/-- The stretch does not write `arg0`. -/
theorem arg0_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg0) : (⟨Cert.KernelIdeal.S50000x512, .f32⟩ : BufTy).Contents (Elt F)) = WR (Proc.devRef .tc Cert.ReferenceIdeal.main_arg0)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg0) : (⟨Cert.KernelIdeal.S50000x512, .f32⟩ : BufTy).Contents (Elt F))
      = StableHlo.after Cert.ReferenceIdeal.RefRun.opsA WR (Proc.devRef .tc Cert.ReferenceIdeal.main_arg0) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg1`. -/
theorem arg1_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg1) : (⟨Cert.KernelIdeal.S50000x512, .f32⟩ : BufTy).Contents (Elt F)) = WR (Proc.devRef .tc Cert.ReferenceIdeal.main_arg1)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg1) : (⟨Cert.KernelIdeal.S50000x512, .f32⟩ : BufTy).Contents (Elt F))
      = StableHlo.after Cert.ReferenceIdeal.RefRun.opsA WR (Proc.devRef .tc Cert.ReferenceIdeal.main_arg1) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg3`. -/
theorem arg3_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg3) : (⟨Cert.KernelIdeal.S512x128, .f32⟩ : BufTy).Contents (Elt F)) = WR (Proc.devRef .tc Cert.ReferenceIdeal.main_arg3)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg3) : (⟨Cert.KernelIdeal.S512x128, .f32⟩ : BufTy).Contents (Elt F))
      = StableHlo.after Cert.ReferenceIdeal.RefRun.opsA WR (Proc.devRef .tc Cert.ReferenceIdeal.main_arg3) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg4`. -/
theorem arg4_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg4) : (⟨Cert.KernelIdeal.S128, .f32⟩ : BufTy).Contents (Elt F)) = WR (Proc.devRef .tc Cert.ReferenceIdeal.main_arg4)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg4) : (⟨Cert.KernelIdeal.S128, .f32⟩ : BufTy).Contents (Elt F))
      = StableHlo.after Cert.ReferenceIdeal.RefRun.opsA WR (Proc.devRef .tc Cert.ReferenceIdeal.main_arg4) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg5`. -/
theorem arg5_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg5) : (⟨Cert.KernelIdeal.S512x128, .f32⟩ : BufTy).Contents (Elt F)) = WR (Proc.devRef .tc Cert.ReferenceIdeal.main_arg5)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg5) : (⟨Cert.KernelIdeal.S512x128, .f32⟩ : BufTy).Contents (Elt F))
      = StableHlo.after Cert.ReferenceIdeal.RefRun.opsA WR (Proc.devRef .tc Cert.ReferenceIdeal.main_arg5) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg6`. -/
theorem arg6_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg6) : (⟨Cert.KernelIdeal.S128, .f32⟩ : BufTy).Contents (Elt F)) = WR (Proc.devRef .tc Cert.ReferenceIdeal.main_arg6)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg6) : (⟨Cert.KernelIdeal.S128, .f32⟩ : BufTy).Contents (Elt F))
      = StableHlo.after Cert.ReferenceIdeal.RefRun.opsA WR (Proc.devRef .tc Cert.ReferenceIdeal.main_arg6) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg7`. -/
theorem arg7_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg7) : (⟨Cert.KernelIdeal.S256x40, .f32⟩ : BufTy).Contents (Elt F)) = WR (Proc.devRef .tc Cert.ReferenceIdeal.main_arg7)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg7) : (⟨Cert.KernelIdeal.S256x40, .f32⟩ : BufTy).Contents (Elt F))
      = StableHlo.after Cert.ReferenceIdeal.RefRun.opsA WR (Proc.devRef .tc Cert.ReferenceIdeal.main_arg7) := by
  dsimp only [Cert.KernelIdeal.Gen.hostOps0, Cert.KernelIdeal.Gen.hostOps0_1, Cert.KernelIdeal.Gen.hostOps0_2, Cert.ReferenceIdeal.RefRun.opsA]
  after_results_pairs
  exact h

/-- The stretch does not write `arg8`. -/
theorem arg8_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg8) : (⟨Cert.KernelIdeal.S40, .f32⟩ : BufTy).Contents (Elt F)) = WR (Proc.devRef .tc Cert.ReferenceIdeal.main_arg8)) :
    (StableHlo.after Cert.KernelIdeal.Gen.hostOps0_2 (StableHlo.after Cert.KernelIdeal.Gen.hostOps0_1 (StableHlo.after Cert.KernelIdeal.Gen.hostOps0 (WK))) (Proc.devRef .tc Cert.KernelIdeal.main_arg8) : (⟨Cert.KernelIdeal.S40, .f32⟩ : BufTy).Contents (Elt F))
      = StableHlo.after Cert.ReferenceIdeal.RefRun.opsA WR (Proc.devRef .tc Cert.ReferenceIdeal.main_arg8) := by
  dsimp only [Cert.KernelIdeal.Gen.hostOps0, Cert.KernelIdeal.Gen.hostOps0_1, Cert.KernelIdeal.Gen.hostOps0_2, Cert.ReferenceIdeal.RefRun.opsA]
  after_results_pairs
  exact h

end Cert.Bridge.StageA

end
-- ==== Proof.StageB.lean ====
/-
  One stretch of host operations, in both programs: the first aggregation: gather by source, scale by the coefficient, scatter-add by destination, add the bias, relu.

  The kernel program and the reference run the same host operations here, on buffers named alike. So if the two
  programs' buffer contents agree, before the stretch, on the buffers a result depends on, they agree on that result
  after it — whatever the operations are: nothing about them is used beyond their being the same. A buffer the stretch
  does not write keeps its contents in both.
-/
import proofs.«127161_j56642028700085_1_alg».proof.Proof.Gen.KernelIdeal.Launch
import proofs.«127161_j56642028700085_1_alg».proof.Proof.RefRun
import Idealize.ShloMosaic.Lib.StableHlo.Run

set_option maxRecDepth 16384
set_option maxHeartbeats 4000000

noncomputable section

namespace Cert.Bridge.StageB

open Idealize.ShloMosaic Idealize.ShloMosaic.TcCoe Idealize.SL.Sem Idealize.ShloMosaic.StableHlo

variable {F : FTy → Type} [FloatOps F]

/-- Buffer `v47` after the stretch depends on `v31`, `v3`, `v6`, `v30`, `arg4` only, and by the same operations in both programs. -/
theorem v47_eq (WK : Valuation Cert.KernelIdeal.τ Cert.KernelIdeal.sig (Elt F)) (WR : Valuation Cert.ReferenceIdeal.τ Cert.ReferenceIdeal.sig (Elt F))
    (h_v31 : (WK (Proc.devRef .tc Cert.KernelIdeal.main_v31) : (⟨Cert.KernelIdeal.S50000x128, .f32⟩ : BufTy).Contents (Elt F)) = WR (Proc.devRef .tc Cert.ReferenceIdeal.main_v31))
    (h_v3 : (WK (Proc.devRef .tc Cert.KernelIdeal.main_v3) : (⟨Cert.KernelIdeal.S850000, .i32⟩ : BufTy).Contents (Elt F)) = WR (Proc.devRef .tc Cert.ReferenceIdeal.main_v3))
    (h_v6 : (WK (Proc.devRef .tc Cert.KernelIdeal.main_v6) : (⟨Cert.KernelIdeal.S850000, .i32⟩ : BufTy).Contents (Elt F)) = WR (Proc.devRef .tc Cert.ReferenceIdeal.main_v6))
    (h_v30 : (WK (Proc.devRef .tc Cert.KernelIdeal.main_v30) : (⟨Cert.KernelIdeal.S850000x1, .f32⟩ : BufTy).Contents (Elt F)) = WR (Proc.devRef .tc Cert.ReferenceIdeal.main_v30))
    (h_arg4 : (WK (Proc.devRef .tc Cert.KernelIdeal.main_arg4) : (⟨Cert.KernelIdeal.S128, .f32⟩ : BufTy).Contents (Elt F)) = WR (Proc.devRef .tc Cert.ReferenceIdeal.main_arg4)) :
    (StableHlo.after Cert.KernelIdeal.Gen.hostOps1_1 (StableHlo.after Cert.KernelIdeal.Gen.hostOps1 (WK)) (Proc.devRef .tc Cert.KernelIdeal.main_v47) : (⟨Cert.KernelIdeal.S50000x128, .f32⟩ : BufTy).Contents (Elt F))
      = StableHlo.after Cert.ReferenceIdeal.RefRun.opsB WR (Proc.devRef .tc Cert.ReferenceIdeal.main_v47) := by
  dsimp only [Cert.KernelIdeal.Gen.hostOps1, Cert.KernelIdeal.Gen.hostOps1_1, Cert.ReferenceIdeal.RefRun.opsB]
  after_results_simp
  simp only [h_v31, h_v3, h_v6, h_v30, h_arg4]
  try rfl

/-- The stretch does not write `v3`. -/
theorem v3_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v3) : (⟨Cert.KernelIdeal.S850000, .i32⟩ : BufTy).Contents (Elt F)) = WR (Proc.devRef .tc Cert.ReferenceIdeal.main_v3)) :
    (StableHlo.after Cert.KernelIdeal.Gen.hostOps1_1 (StableHlo.after Cert.KernelIdeal.Gen.hostOps1 (WK)) (Proc.devRef .tc Cert.KernelIdeal.main_v3) : (⟨Cert.KernelIdeal.S850000, .i32⟩ : BufTy).Contents (Elt F))
      = StableHlo.after Cert.ReferenceIdeal.RefRun.opsB WR (Proc.devRef .tc Cert.ReferenceIdeal.main_v3) := by
  dsimp only [Cert.KernelIdeal.Gen.hostOps1, Cert.KernelIdeal.Gen.hostOps1_1, Cert.ReferenceIdeal.RefRun.opsB]
  after_results_simp
  exact h

/-- The stretch does not write `v6`. -/
theorem v6_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v6) : (⟨Cert.KernelIdeal.S850000, .i32⟩ : BufTy).Contents (Elt F)) = WR (Proc.devRef .tc Cert.ReferenceIdeal.main_v6)) :
    (StableHlo.after Cert.KernelIdeal.Gen.hostOps1_1 (StableHlo.after Cert.KernelIdeal.Gen.hostOps1 (WK)) (Proc.devRef .tc Cert.KernelIdeal.main_v6) : (⟨Cert.KernelIdeal.S850000, .i32⟩ : BufTy).Contents (Elt F))
      = StableHlo.after Cert.ReferenceIdeal.RefRun.opsB WR (Proc.devRef .tc Cert.ReferenceIdeal.main_v6) := by
  dsimp only [Cert.KernelIdeal.Gen.hostOps1, Cert.KernelIdeal.Gen.hostOps1_1, Cert.ReferenceIdeal.RefRun.opsB]
  after_results_simp
  exact h

/-- The stretch does not write `v30`. -/
theorem v30_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v30) : (⟨Cert.KernelIdeal.S850000x1, .f32⟩ : BufTy).Contents (Elt F)) = WR (Proc.devRef .tc Cert.ReferenceIdeal.main_v30)) :
    (StableHlo.after Cert.KernelIdeal.Gen.hostOps1_1 (StableHlo.after Cert.KernelIdeal.Gen.hostOps1 (WK)) (Proc.devRef .tc Cert.KernelIdeal.main_v30) : (⟨Cert.KernelIdeal.S850000x1, .f32⟩ : BufTy).Contents (Elt F))
      = StableHlo.after Cert.ReferenceIdeal.RefRun.opsB WR (Proc.devRef .tc Cert.ReferenceIdeal.main_v30) := by
  dsimp only [Cert.KernelIdeal.Gen.hostOps1, Cert.KernelIdeal.Gen.hostOps1_1, Cert.ReferenceIdeal.RefRun.opsB]
  after_results_simp
  exact h

/-- The stretch does not write `arg1`. -/
theorem arg1_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg1) : (⟨Cert.KernelIdeal.S50000x512, .f32⟩ : BufTy).Contents (Elt F)) = WR (Proc.devRef .tc Cert.ReferenceIdeal.main_arg1)) :
    (StableHlo.after Cert.KernelIdeal.Gen.hostOps1_1 (StableHlo.after Cert.KernelIdeal.Gen.hostOps1 (WK)) (Proc.devRef .tc Cert.KernelIdeal.main_arg1) : (⟨Cert.KernelIdeal.S50000x512, .f32⟩ : BufTy).Contents (Elt F))
      = StableHlo.after Cert.ReferenceIdeal.RefRun.opsB WR (Proc.devRef .tc Cert.ReferenceIdeal.main_arg1) := by
  dsimp only [Cert.KernelIdeal.Gen.hostOps1, Cert.KernelIdeal.Gen.hostOps1_1, Cert.ReferenceIdeal.RefRun.opsB]
  after_results_simp
  exact h

/-- The stretch does not write `arg5`. -/
theorem arg5_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg5) : (⟨Cert.KernelIdeal.S512x128, .f32⟩ : BufTy).Contents (Elt F)) = WR (Proc.devRef .tc Cert.ReferenceIdeal.main_arg5)) :
    (StableHlo.after Cert.KernelIdeal.Gen.hostOps1_1 (StableHlo.after Cert.KernelIdeal.Gen.hostOps1 (WK)) (Proc.devRef .tc Cert.KernelIdeal.main_arg5) : (⟨Cert.KernelIdeal.S512x128, .f32⟩ : BufTy).Contents (Elt F))
      = StableHlo.after Cert.ReferenceIdeal.RefRun.opsB WR (Proc.devRef .tc Cert.ReferenceIdeal.main_arg5) := by
  dsimp only [Cert.KernelIdeal.Gen.hostOps1, Cert.KernelIdeal.Gen.hostOps1_1, Cert.ReferenceIdeal.RefRun.opsB]
  after_results_simp
  exact h

/-- The stretch does not write `arg6`. -/
theorem arg6_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg6) : (⟨Cert.KernelIdeal.S128, .f32⟩ : BufTy).Contents (Elt F)) = WR (Proc.devRef .tc Cert.ReferenceIdeal.main_arg6)) :
    (StableHlo.after Cert.KernelIdeal.Gen.hostOps1_1 (StableHlo.after Cert.KernelIdeal.Gen.hostOps1 (WK)) (Proc.devRef .tc Cert.KernelIdeal.main_arg6) : (⟨Cert.KernelIdeal.S128, .f32⟩ : BufTy).Contents (Elt F))
      = StableHlo.after Cert.ReferenceIdeal.RefRun.opsB WR (Proc.devRef .tc Cert.ReferenceIdeal.main_arg6) := by
  dsimp only [Cert.KernelIdeal.Gen.hostOps1, Cert.KernelIdeal.Gen.hostOps1_1, Cert.ReferenceIdeal.RefRun.opsB]
  after_results_simp
  exact h

/-- The stretch does not write `arg7`. -/
theorem arg7_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg7) : (⟨Cert.KernelIdeal.S256x40, .f32⟩ : BufTy).Contents (Elt F)) = WR (Proc.devRef .tc Cert.ReferenceIdeal.main_arg7)) :
    (StableHlo.after Cert.KernelIdeal.Gen.hostOps1_1 (StableHlo.after Cert.KernelIdeal.Gen.hostOps1 (WK)) (Proc.devRef .tc Cert.KernelIdeal.main_arg7) : (⟨Cert.KernelIdeal.S256x40, .f32⟩ : BufTy).Contents (Elt F))
      = StableHlo.after Cert.ReferenceIdeal.RefRun.opsB WR (Proc.devRef .tc Cert.ReferenceIdeal.main_arg7) := by
  dsimp only [Cert.KernelIdeal.Gen.hostOps1, Cert.KernelIdeal.Gen.hostOps1_1, Cert.ReferenceIdeal.RefRun.opsB]
  after_results_simp
  exact h

/-- The stretch does not write `arg8`. -/
theorem arg8_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg8) : (⟨Cert.KernelIdeal.S40, .f32⟩ : BufTy).Contents (Elt F)) = WR (Proc.devRef .tc Cert.ReferenceIdeal.main_arg8)) :
    (StableHlo.after Cert.KernelIdeal.Gen.hostOps1_1 (StableHlo.after Cert.KernelIdeal.Gen.hostOps1 (WK)) (Proc.devRef .tc Cert.KernelIdeal.main_arg8) : (⟨Cert.KernelIdeal.S40, .f32⟩ : BufTy).Contents (Elt F))
      = StableHlo.after Cert.ReferenceIdeal.RefRun.opsB WR (Proc.devRef .tc Cert.ReferenceIdeal.main_arg8) := by
  dsimp only [Cert.KernelIdeal.Gen.hostOps1, Cert.KernelIdeal.Gen.hostOps1_1, Cert.ReferenceIdeal.RefRun.opsB]
  after_results_simp
  exact h

end Cert.Bridge.StageB

end
-- ==== Proof.StageC.lean ====
/-
  One stretch of host operations, in both programs: the second aggregation and the two hidden halves side by side.

  The kernel program and the reference run the same host operations here, on buffers named alike. So if the two
  programs' buffer contents agree, before the stretch, on the buffers a result depends on, they agree on that result
  after it — whatever the operations are: nothing about them is used beyond their being the same. A buffer the stretch
  does not write keeps its contents in both.
-/
import proofs.«127161_j56642028700085_1_alg».proof.Proof.Gen.KernelIdeal.Launch
import proofs.«127161_j56642028700085_1_alg».proof.Proof.RefRun
import Idealize.ShloMosaic.Lib.StableHlo.Run
import proofs.«127161_j56642028700085_1_alg».proof.Proof.LibConcatPair

set_option maxRecDepth 16384
set_option maxHeartbeats 4000000

noncomputable section

namespace Cert.Bridge.StageC

open Idealize.ShloMosaic Idealize.ShloMosaic.TcCoe Idealize.SL.Sem Idealize.ShloMosaic.StableHlo

variable {F : FTy → Type} [FloatOps F]

/-- Buffer `v65` after the stretch depends on `v48`, `v3`, `v6`, `v30`, `arg6`, `v47` only, and by the same operations in both programs. -/
theorem v65_eq (WK : Valuation Cert.KernelIdeal.τ Cert.KernelIdeal.sig (Elt F)) (WR : Valuation Cert.ReferenceIdeal.τ Cert.ReferenceIdeal.sig (Elt F))
    (h_v48 : (WK (Proc.devRef .tc Cert.KernelIdeal.main_v48) : (⟨Cert.KernelIdeal.S50000x128, .f32⟩ : BufTy).Contents (Elt F)) = WR (Proc.devRef .tc Cert.ReferenceIdeal.main_v48))
    (h_v3 : (WK (Proc.devRef .tc Cert.KernelIdeal.main_v3) : (⟨Cert.KernelIdeal.S850000, .i32⟩ : BufTy).Contents (Elt F)) = WR (Proc.devRef .tc Cert.ReferenceIdeal.main_v3))
    (h_v6 : (WK (Proc.devRef .tc Cert.KernelIdeal.main_v6) : (⟨Cert.KernelIdeal.S850000, .i32⟩ : BufTy).Contents (Elt F)) = WR (Proc.devRef .tc Cert.ReferenceIdeal.main_v6))
    (h_v30 : (WK (Proc.devRef .tc Cert.KernelIdeal.main_v30) : (⟨Cert.KernelIdeal.S850000x1, .f32⟩ : BufTy).Contents (Elt F)) = WR (Proc.devRef .tc Cert.ReferenceIdeal.main_v30))
    (h_arg6 : (WK (Proc.devRef .tc Cert.KernelIdeal.main_arg6) : (⟨Cert.KernelIdeal.S128, .f32⟩ : BufTy).Contents (Elt F)) = WR (Proc.devRef .tc Cert.ReferenceIdeal.main_arg6))
    (h_v47 : (WK (Proc.devRef .tc Cert.KernelIdeal.main_v47) : (⟨Cert.KernelIdeal.S50000x128, .f32⟩ : BufTy).Contents (Elt F)) = WR (Proc.devRef .tc Cert.ReferenceIdeal.main_v47)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_v65) : (⟨Cert.KernelIdeal.S50000x256, .f32⟩ : BufTy).Contents (Elt F))
      = StableHlo.after Cert.ReferenceIdeal.RefRun.opsC WR (Proc.devRef .tc Cert.ReferenceIdeal.main_v65) := by
  dsimp only [Cert.KernelIdeal.Gen.hostOps2, Cert.KernelIdeal.Gen.hostOps2_1, Cert.KernelIdeal.Gen.hostOps2_2, Cert.ReferenceIdeal.RefRun.opsC]
  after_results_pairs
  simp only [h_v48, h_v3, h_v6, h_v30, h_arg6, h_v47]
  try rfl

/-- The stretch does not write `v3`. -/
theorem v3_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v3) : (⟨Cert.KernelIdeal.S850000, .i32⟩ : BufTy).Contents (Elt F)) = WR (Proc.devRef .tc Cert.ReferenceIdeal.main_v3)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_v3) : (⟨Cert.KernelIdeal.S850000, .i32⟩ : BufTy).Contents (Elt F))
      = StableHlo.after Cert.ReferenceIdeal.RefRun.opsC WR (Proc.devRef .tc Cert.ReferenceIdeal.main_v3) := by
  dsimp only [Cert.KernelIdeal.Gen.hostOps2, Cert.KernelIdeal.Gen.hostOps2_1, Cert.KernelIdeal.Gen.hostOps2_2, Cert.ReferenceIdeal.RefRun.opsC]
  after_results_pairs
  exact h

/-- The stretch does not write `v6`. -/
theorem v6_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v6) : (⟨Cert.KernelIdeal.S850000, .i32⟩ : BufTy).Contents (Elt F)) = WR (Proc.devRef .tc Cert.ReferenceIdeal.main_v6)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_v6) : (⟨Cert.KernelIdeal.S850000, .i32⟩ : BufTy).Contents (Elt F))
      = StableHlo.after Cert.ReferenceIdeal.RefRun.opsC WR (Proc.devRef .tc Cert.ReferenceIdeal.main_v6) := by
  dsimp only [Cert.KernelIdeal.Gen.hostOps2, Cert.KernelIdeal.Gen.hostOps2_1, Cert.KernelIdeal.Gen.hostOps2_2, Cert.ReferenceIdeal.RefRun.opsC]
  after_results_pairs
  exact h

/-- The stretch does not write `v30`. -/
theorem v30_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_v30) : (⟨Cert.KernelIdeal.S850000x1, .f32⟩ : BufTy).Contents (Elt F)) = WR (Proc.devRef .tc Cert.ReferenceIdeal.main_v30)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_v30) : (⟨Cert.KernelIdeal.S850000x1, .f32⟩ : BufTy).Contents (Elt F))
      = StableHlo.after Cert.ReferenceIdeal.RefRun.opsC WR (Proc.devRef .tc Cert.ReferenceIdeal.main_v30) := by
  dsimp only [Cert.KernelIdeal.Gen.hostOps2, Cert.KernelIdeal.Gen.hostOps2_1, Cert.KernelIdeal.Gen.hostOps2_2, Cert.ReferenceIdeal.RefRun.opsC]
  after_results_pairs
  exact h

/-- The stretch does not write `arg7`. -/
theorem arg7_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg7) : (⟨Cert.KernelIdeal.S256x40, .f32⟩ : BufTy).Contents (Elt F)) = WR (Proc.devRef .tc Cert.ReferenceIdeal.main_arg7)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_arg7) : (⟨Cert.KernelIdeal.S256x40, .f32⟩ : BufTy).Contents (Elt F))
      = StableHlo.after Cert.ReferenceIdeal.RefRun.opsC WR (Proc.devRef .tc Cert.ReferenceIdeal.main_arg7) := by
  dsimp only [Cert.KernelIdeal.Gen.hostOps2, Cert.KernelIdeal.Gen.hostOps2_1, Cert.KernelIdeal.Gen.hostOps2_2, Cert.ReferenceIdeal.RefRun.opsC]
  after_results_pairs
  exact h

/-- The stretch does not write `arg8`. -/
theorem arg8_kept (WK : Valuation Cert.KernelIdeal.τ Cert.KernelIdeal.sig (Elt F)) (WR : Valuation Cert.ReferenceIdeal.τ Cert.ReferenceIdeal.sig (Elt F))
    (h : (WK (Proc.devRef .tc Cert.KernelIdeal.main_arg8) : (⟨Cert.KernelIdeal.S40, .f32⟩ : BufTy).Contents (Elt F)) = WR (Proc.devRef .tc Cert.ReferenceIdeal.main_arg8)) :
    (StableHlo.after Cert.KernelIdeal.Gen.hostOps2_2 (StableHlo.after Cert.KernelIdeal.Gen.hostOps2_1 (StableHlo.after Cert.KernelIdeal.Gen.hostOps2 (WK))) (Proc.devRef .tc Cert.KernelIdeal.main_arg8) : (⟨Cert.KernelIdeal.S40, .f32⟩ : BufTy).Contents (Elt F))
      = StableHlo.after Cert.ReferenceIdeal.RefRun.opsC WR (Proc.devRef .tc Cert.ReferenceIdeal.main_arg8) := by
  dsimp only [Cert.KernelIdeal.Gen.hostOps2, Cert.KernelIdeal.Gen.hostOps2_1, Cert.KernelIdeal.Gen.hostOps2_2, Cert.ReferenceIdeal.RefRun.opsC]
  after_results_pairs
  exact h

end Cert.Bridge.StageC

end
-- ==== Proof.StageD.lean ====
/-
  One stretch of host operations, in both programs: the third aggregation, its bias and the row-wise log-softmax.

  The kernel program and the reference run the same host operations here, on buffers named alike. So if the two
  programs' buffer contents agree, before the stretch, on the buffers a result depends on, they agree on that result
  after it — whatever the operations are: nothing about them is used beyond their being the same. A buffer the stretch
  does not write keeps its contents in both.
-/
import proofs.«127161_j56642028700085_1_alg».proof.Proof.Gen.KernelIdeal.Launch
import proofs.«127161_j56642028700085_1_alg».proof.Proof.RefRun
import Idealize.ShloMosaic.Lib.StableHlo.Run

set_option maxRecDepth 16384
set_option maxHeartbeats 4000000

noncomputable section

namespace Cert.Bridge.StageD

open Idealize.ShloMosaic Idealize.ShloMosaic.TcCoe Idealize.SL.Sem Idealize.ShloMosaic.StableHlo

variable {F : FTy → Type} [FloatOps F]

/-- Buffer `v82` after the stretch depends on `v66`, `v3`, `v6`, `v30`, `arg8` only, and by the same operations in both programs. -/
theorem v82_eq (WK : Valuation Cert.KernelIdeal.τ Cert.KernelIdeal.sig (Elt F)) (WR : Valuation Cert.ReferenceIdeal.τ Cert.ReferenceIdeal.sig (Elt F))
    (h_v66 : (WK (Proc.devRef .tc Cert.KernelIdeal.main_v66) : (⟨Cert.KernelIdeal.S50000x40, .f32⟩ : BufTy).Contents (Elt F)) = WR (Proc.devRef .tc Cert.ReferenceIdeal.main_v66))
    (h_v3 : (WK (Proc.devRef .tc Cert.KernelIdeal.main_v3) : (⟨Cert.KernelIdeal.S850000, .i32⟩ : BufTy).Contents (Elt F)) = WR (Proc.devRef .tc Cert.ReferenceIdeal.main_v3))
    (h_v6 : (WK (Proc.devRef .tc Cert.KernelIdeal.main_v6) : (⟨Cert.KernelIdeal.S850000, .i32⟩ : BufTy).Contents (Elt F)) = WR (Proc.devRef .tc Cert.ReferenceIdeal.main_v6))
    (h_v30 : (WK (Proc.devRef .tc Cert.KernelIdeal.main_v30) : (⟨Cert.KernelIdeal.S850000x1, .f32⟩ : BufTy).Contents (Elt F)) = WR (Proc.devRef .tc Cert.ReferenceIdeal.main_v30))
    (h_arg8 : (WK (Proc.devRef .tc Cert.KernelIdeal.main_arg8) : (⟨Cert.KernelIdeal.S40, .f32⟩ : BufTy).Contents (Elt F)) = WR (Proc.devRef .tc Cert.ReferenceIdeal.main_arg8)) :
    (StableHlo.after Cert.KernelIdeal.Gen.hostOps3_1 (StableHlo.after Cert.KernelIdeal.Gen.hostOps3 (WK)) (Proc.devRef .tc Cert.KernelIdeal.main_v82) : (⟨Cert.KernelIdeal.S50000x40, .f32⟩ : BufTy).Contents (Elt F))
      = StableHlo.after Cert.ReferenceIdeal.RefRun.opsD WR (Proc.devRef .tc Cert.ReferenceIdeal.main_v82) := by
  dsimp only [Cert.KernelIdeal.Gen.hostOps3, Cert.KernelIdeal.Gen.hostOps3_1, Cert.ReferenceIdeal.RefRun.opsD]
  after_results_simp
  simp only [h_v66, h_v3, h_v6, h_v30, h_arg8]
  try rfl

end Cert.Bridge.StageD

end
-- ==== Proof.Chain.lean ====
/-
  The two programs compute the same result.

  The kernel program's @main and the reference's @main are the same straight line of host operations except at three
  places, where the reference has a matrix product (`dot_general`) and the kernel program a launch of its
  matrix-product kernel. Walk both programs from the launch, boundary by boundary — before the first product, after
  it, before the second, … — and keep, at each boundary, the fact that the two programs' buffer contents AGREE on the
  buffers still to be read. A stretch of host operations preserves agreement because it is the same stretch in both (the
  stage modules). A product preserves it because the kernel's launch leaves rows times columns of its two operand
  arrays in its output (the region modules) and so does the reference's `dot_general` on the extended reals, and the
  operands agree by the boundary before. At the last boundary the buffers still to be read are the result.
  No property of the inputs is used: the sums are the same sums, term by term.
-/
import proofs.«127161_j56642028700085_1_alg».proof.Proof.Gen.KernelIdeal.Frame
import proofs.«127161_j56642028700085_1_alg».proof.Proof.RefRun
import proofs.«127161_j56642028700085_1_alg».proof.Proof.RefDot
import proofs.«127161_j56642028700085_1_alg».proof.Proof.Region0
import proofs.«127161_j56642028700085_1_alg».proof.Proof.Region1
import proofs.«127161_j56642028700085_1_alg».proof.Proof.Region2
import proofs.«127161_j56642028700085_1_alg».proof.Proof.StageA
import proofs.«127161_j56642028700085_1_alg».proof.Proof.StageB
import proofs.«127161_j56642028700085_1_alg».proof.Proof.StageC
import proofs.«127161_j56642028700085_1_alg».proof.Proof.StageD

set_option maxRecDepth 16384

noncomputable section

namespace Cert.Bridge.Chain

open Cert.KernelIdeal Cert.KernelIdeal.Gen
open Idealize.ShloMosaic Idealize.ShloMosaic.TcCoe Idealize.SL.Sem Idealize.ShloMosaic.ValueIdx

/-! ## The reference's products, at any contents -/

/-- The reference's product writes rows times columns of its two operands to `v31` … -/
theorem dot1_result (W : Valuation Cert.ReferenceIdeal.τ Cert.ReferenceIdeal.sig (Elt Ideal)) :
    (StableHlo.after [Cert.ReferenceIdeal.RefRun.dot1] W (Proc.devRef .tc Cert.ReferenceIdeal.main_v31) : (⟨Cert.KernelIdeal.S50000x128, .f32⟩ : BufTy).Contents (Elt Ideal))
      = rowsByCols (n := 50000) (K := 512) (h := 128) (W (Proc.devRef .tc Cert.ReferenceIdeal.main_arg0)) (W (Proc.devRef .tc Cert.ReferenceIdeal.main_arg3)) :=
  by
  show (Cert.ReferenceIdeal.RefRun.dot1).result W (Proc.devRef .tc Cert.ReferenceIdeal.main_v31) = _
  rw [StableHlo.binary_result]
  exact Cert.ReferenceIdeal.RefDot.dot_512 _ _
/-- … and leaves every other buffer as it was. -/
theorem dot1_keeps (W : Valuation Cert.ReferenceIdeal.τ Cert.ReferenceIdeal.sig (Elt Ideal)) {r : Ref Cert.ReferenceIdeal.sig .tc} (h : r ≠ Cert.ReferenceIdeal.main_v31) :
    StableHlo.after [Cert.ReferenceIdeal.RefRun.dot1] W (Proc.devRef .tc r) = W (Proc.devRef .tc r) := by
  show (Cert.ReferenceIdeal.RefRun.dot1).result W (Proc.devRef .tc r) = _
  rw [StableHlo.binary_result_ne]
  exact h

/-- The reference's product writes rows times columns of its two operands to `v48` … -/
theorem dot2_result (W : Valuation Cert.ReferenceIdeal.τ Cert.ReferenceIdeal.sig (Elt Ideal)) :
    (StableHlo.after [Cert.ReferenceIdeal.RefRun.dot2] W (Proc.devRef .tc Cert.ReferenceIdeal.main_v48) : (⟨Cert.KernelIdeal.S50000x128, .f32⟩ : BufTy).Contents (Elt Ideal))
      = rowsByCols (n := 50000) (K := 512) (h := 128) (W (Proc.devRef .tc Cert.ReferenceIdeal.main_arg1)) (W (Proc.devRef .tc Cert.ReferenceIdeal.main_arg5)) :=
  by
  show (Cert.ReferenceIdeal.RefRun.dot2).result W (Proc.devRef .tc Cert.ReferenceIdeal.main_v48) = _
  rw [StableHlo.binary_result]
  exact Cert.ReferenceIdeal.RefDot.dot_512 _ _
/-- … and leaves every other buffer as it was. -/
theorem dot2_keeps (W : Valuation Cert.ReferenceIdeal.τ Cert.ReferenceIdeal.sig (Elt Ideal)) {r : Ref Cert.ReferenceIdeal.sig .tc} (h : r ≠ Cert.ReferenceIdeal.main_v48) :
    StableHlo.after [Cert.ReferenceIdeal.RefRun.dot2] W (Proc.devRef .tc r) = W (Proc.devRef .tc r) := by
  show (Cert.ReferenceIdeal.RefRun.dot2).result W (Proc.devRef .tc r) = _
  rw [StableHlo.binary_result_ne]
  exact h

/-- The reference's product writes rows times columns of its two operands to `v66` … -/
theorem dot3_result (W : Valuation Cert.ReferenceIdeal.τ Cert.ReferenceIdeal.sig (Elt Ideal)) :
    (StableHlo.after [Cert.ReferenceIdeal.RefRun.dot3] W (Proc.devRef .tc Cert.ReferenceIdeal.main_v66) : (⟨Cert.KernelIdeal.S50000x40, .f32⟩ : BufTy).Contents (Elt Ideal))
      = rowsByCols (n := 50000) (K := 256) (h := 40) (W (Proc.devRef .tc Cert.ReferenceIdeal.main_v65)) (W (Proc.devRef .tc Cert.ReferenceIdeal.main_arg7)) :=
  by
  show (Cert.ReferenceIdeal.RefRun.dot3).result W (Proc.devRef .tc Cert.ReferenceIdeal.main_v66) = _
  rw [StableHlo.binary_result]
  exact Cert.ReferenceIdeal.RefDot.dot_256 _ _
/-- … and leaves every other buffer as it was. -/
theorem dot3_keeps (W : Valuation Cert.ReferenceIdeal.τ Cert.ReferenceIdeal.sig (Elt Ideal)) {r : Ref Cert.ReferenceIdeal.sig .tc} (h : r ≠ Cert.ReferenceIdeal.main_v66) :
    StableHlo.after [Cert.ReferenceIdeal.RefRun.dot3] W (Proc.devRef .tc r) = W (Proc.devRef .tc r) := by
  show (Cert.ReferenceIdeal.RefRun.dot3).result W (Proc.devRef .tc r) = _
  rw [StableHlo.binary_result_ne]
  exact h

/-! ## The reference's buffer contents at its boundaries -/

section Boundaries
variable (m' : (ℓ : Loc Cert.ReferenceIdeal.nD Cert.ReferenceIdeal.τ Cert.ReferenceIdeal.sig) → Buf (Elt Ideal) ℓ) (c : Dev Cert.ReferenceIdeal.nD)
/-- At launch. -/
def R0 : Valuation Cert.ReferenceIdeal.τ Cert.ReferenceIdeal.sig (Elt Ideal) := StableHlo.launchContents m' c
/-- Before the first product. -/
def RA : Valuation Cert.ReferenceIdeal.τ Cert.ReferenceIdeal.sig (Elt Ideal) := StableHlo.after Cert.ReferenceIdeal.RefRun.opsA (R0 m' c)
/-- After it. -/
def R1 : Valuation Cert.ReferenceIdeal.τ Cert.ReferenceIdeal.sig (Elt Ideal) := StableHlo.after [Cert.ReferenceIdeal.RefRun.dot1] (RA m' c)
/-- Before the second product. -/
def RB : Valuation Cert.ReferenceIdeal.τ Cert.ReferenceIdeal.sig (Elt Ideal) := StableHlo.after Cert.ReferenceIdeal.RefRun.opsB (R1 m' c)
/-- After it. -/
def R2 : Valuation Cert.ReferenceIdeal.τ Cert.ReferenceIdeal.sig (Elt Ideal) := StableHlo.after [Cert.ReferenceIdeal.RefRun.dot2] (RB m' c)
/-- Before the third product. -/
def RC : Valuation Cert.ReferenceIdeal.τ Cert.ReferenceIdeal.sig (Elt Ideal) := StableHlo.after Cert.ReferenceIdeal.RefRun.opsC (R2 m' c)
/-- After it. -/
def R3 : Valuation Cert.ReferenceIdeal.τ Cert.ReferenceIdeal.sig (Elt Ideal) := StableHlo.after [Cert.ReferenceIdeal.RefRun.dot3] (RC m' c)
/-- At the return. -/
def RD : Valuation Cert.ReferenceIdeal.τ Cert.ReferenceIdeal.sig (Elt Ideal) := StableHlo.after Cert.ReferenceIdeal.RefRun.opsD (R3 m' c)

/-- The fold of the whole operation list is the fold through the boundaries. -/
theorem RD_eq : StableHlo.after Cert.ReferenceIdeal.RefRun.ops (StableHlo.launchContents m' c) = RD m' c := by
  rw [Cert.ReferenceIdeal.RefRun.ops_split, Cert.ReferenceIdeal.RefRun.after_append]
  show StableHlo.after (Cert.ReferenceIdeal.RefRun.opsB ++ Cert.ReferenceIdeal.RefRun.dot2 :: (Cert.ReferenceIdeal.RefRun.opsC ++ Cert.ReferenceIdeal.RefRun.dot3 :: Cert.ReferenceIdeal.RefRun.opsD)) (R1 m' c) = _
  rw [Cert.ReferenceIdeal.RefRun.after_append]
  show StableHlo.after (Cert.ReferenceIdeal.RefRun.opsC ++ Cert.ReferenceIdeal.RefRun.dot3 :: Cert.ReferenceIdeal.RefRun.opsD) (R2 m' c) = _
  rw [Cert.ReferenceIdeal.RefRun.after_append]
  rfl
end Boundaries

/-! ## Agreement, boundary by boundary -/

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
variable (c : Dev nD)
include hagree

/-! ## At the launch: the arguments agree (the claim's hypothesis) -/

theorem Z_arg0 : (W0 m ρ c (Proc.devRef .tc Cert.KernelIdeal.main_arg0) : (⟨Cert.KernelIdeal.S50000x512, .f32⟩ : BufTy).Contents (Elt Ideal)) = R0 m' c (Proc.devRef .tc Cert.ReferenceIdeal.main_arg0) :=
  ((hagree c).1).symm
theorem Z_arg1 : (W0 m ρ c (Proc.devRef .tc Cert.KernelIdeal.main_arg1) : (⟨Cert.KernelIdeal.S50000x512, .f32⟩ : BufTy).Contents (Elt Ideal)) = R0 m' c (Proc.devRef .tc Cert.ReferenceIdeal.main_arg1) :=
  ((hagree c).2.1).symm
theorem Z_arg2 : (W0 m ρ c (Proc.devRef .tc Cert.KernelIdeal.main_arg2) : (⟨Cert.KernelIdeal.S2x800000, .i32⟩ : BufTy).Contents (Elt Ideal)) = R0 m' c (Proc.devRef .tc Cert.ReferenceIdeal.main_arg2) :=
  ((hagree c).2.2.1).symm
theorem Z_arg3 : (W0 m ρ c (Proc.devRef .tc Cert.KernelIdeal.main_arg3) : (⟨Cert.KernelIdeal.S512x128, .f32⟩ : BufTy).Contents (Elt Ideal)) = R0 m' c (Proc.devRef .tc Cert.ReferenceIdeal.main_arg3) :=
  ((hagree c).2.2.2.1).symm
theorem Z_arg4 : (W0 m ρ c (Proc.devRef .tc Cert.KernelIdeal.main_arg4) : (⟨Cert.KernelIdeal.S128, .f32⟩ : BufTy).Contents (Elt Ideal)) = R0 m' c (Proc.devRef .tc Cert.ReferenceIdeal.main_arg4) :=
  ((hagree c).2.2.2.2.1).symm
theorem Z_arg5 : (W0 m ρ c (Proc.devRef .tc Cert.KernelIdeal.main_arg5) : (⟨Cert.KernelIdeal.S512x128, .f32⟩ : BufTy).Contents (Elt Ideal)) = R0 m' c (Proc.devRef .tc Cert.ReferenceIdeal.main_arg5) :=
  ((hagree c).2.2.2.2.2.1).symm
theorem Z_arg6 : (W0 m ρ c (Proc.devRef .tc Cert.KernelIdeal.main_arg6) : (⟨Cert.KernelIdeal.S128, .f32⟩ : BufTy).Contents (Elt Ideal)) = R0 m' c (Proc.devRef .tc Cert.ReferenceIdeal.main_arg6) :=
  ((hagree c).2.2.2.2.2.2.1).symm
theorem Z_arg7 : (W0 m ρ c (Proc.devRef .tc Cert.KernelIdeal.main_arg7) : (⟨Cert.KernelIdeal.S256x40, .f32⟩ : BufTy).Contents (Elt Ideal)) = R0 m' c (Proc.devRef .tc Cert.ReferenceIdeal.main_arg7) :=
  ((hagree c).2.2.2.2.2.2.2.1).symm
theorem Z_arg8 : (W0 m ρ c (Proc.devRef .tc Cert.KernelIdeal.main_arg8) : (⟨Cert.KernelIdeal.S40, .f32⟩ : BufTy).Contents (Elt Ideal)) = R0 m' c (Proc.devRef .tc Cert.ReferenceIdeal.main_arg8) :=
  ((hagree c).2.2.2.2.2.2.2.2).symm

/-! ## Before the first product -/

theorem A_v3 : (W3 m ρ c (Proc.devRef .tc Cert.KernelIdeal.main_v3) : (⟨Cert.KernelIdeal.S850000, .i32⟩ : BufTy).Contents (Elt Ideal)) = RA m' c (Proc.devRef .tc Cert.ReferenceIdeal.main_v3) :=
  Cert.Bridge.StageA.v3_eq (W0 m ρ c) (R0 m' c) (Z_arg2 m ρ m' hagree c)
theorem A_v6 : (W3 m ρ c (Proc.devRef .tc Cert.KernelIdeal.main_v6) : (⟨Cert.KernelIdeal.S850000, .i32⟩ : BufTy).Contents (Elt Ideal)) = RA m' c (Proc.devRef .tc Cert.ReferenceIdeal.main_v6) :=
  Cert.Bridge.StageA.v6_eq (W0 m ρ c) (R0 m' c) (Z_arg2 m ρ m' hagree c)
theorem A_v30 : (W3 m ρ c (Proc.devRef .tc Cert.KernelIdeal.main_v30) : (⟨Cert.KernelIdeal.S850000x1, .f32⟩ : BufTy).Contents (Elt Ideal)) = RA m' c (Proc.devRef .tc Cert.ReferenceIdeal.main_v30) :=
  Cert.Bridge.StageA.v30_eq (W0 m ρ c) (R0 m' c) (Z_arg2 m ρ m' hagree c)
theorem A_arg0 : (W3 m ρ c (Proc.devRef .tc Cert.KernelIdeal.main_arg0) : (⟨Cert.KernelIdeal.S50000x512, .f32⟩ : BufTy).Contents (Elt Ideal)) = RA m' c (Proc.devRef .tc Cert.ReferenceIdeal.main_arg0) :=
  Cert.Bridge.StageA.arg0_kept (W0 m ρ c) (R0 m' c) (Z_arg0 m ρ m' hagree c)
theorem A_arg1 : (W3 m ρ c (Proc.devRef .tc Cert.KernelIdeal.main_arg1) : (⟨Cert.KernelIdeal.S50000x512, .f32⟩ : BufTy).Contents (Elt Ideal)) = RA m' c (Proc.devRef .tc Cert.ReferenceIdeal.main_arg1) :=
  Cert.Bridge.StageA.arg1_kept (W0 m ρ c) (R0 m' c) (Z_arg1 m ρ m' hagree c)
theorem A_arg3 : (W3 m ρ c (Proc.devRef .tc Cert.KernelIdeal.main_arg3) : (⟨Cert.KernelIdeal.S512x128, .f32⟩ : BufTy).Contents (Elt Ideal)) = RA m' c (Proc.devRef .tc Cert.ReferenceIdeal.main_arg3) :=
  Cert.Bridge.StageA.arg3_kept (W0 m ρ c) (R0 m' c) (Z_arg3 m ρ m' hagree c)
theorem A_arg4 : (W3 m ρ c (Proc.devRef .tc Cert.KernelIdeal.main_arg4) : (⟨Cert.KernelIdeal.S128, .f32⟩ : BufTy).Contents (Elt Ideal)) = RA m' c (Proc.devRef .tc Cert.ReferenceIdeal.main_arg4) :=
  Cert.Bridge.StageA.arg4_kept (W0 m ρ c) (R0 m' c) (Z_arg4 m ρ m' hagree c)
theorem A_arg5 : (W3 m ρ c (Proc.devRef .tc Cert.KernelIdeal.main_arg5) : (⟨Cert.KernelIdeal.S512x128, .f32⟩ : BufTy).Contents (Elt Ideal)) = RA m' c (Proc.devRef .tc Cert.ReferenceIdeal.main_arg5) :=
  Cert.Bridge.StageA.arg5_kept (W0 m ρ c) (R0 m' c) (Z_arg5 m ρ m' hagree c)
theorem A_arg6 : (W3 m ρ c (Proc.devRef .tc Cert.KernelIdeal.main_arg6) : (⟨Cert.KernelIdeal.S128, .f32⟩ : BufTy).Contents (Elt Ideal)) = RA m' c (Proc.devRef .tc Cert.ReferenceIdeal.main_arg6) :=
  Cert.Bridge.StageA.arg6_kept (W0 m ρ c) (R0 m' c) (Z_arg6 m ρ m' hagree c)
theorem A_arg7 : (W3 m ρ c (Proc.devRef .tc Cert.KernelIdeal.main_arg7) : (⟨Cert.KernelIdeal.S256x40, .f32⟩ : BufTy).Contents (Elt Ideal)) = RA m' c (Proc.devRef .tc Cert.ReferenceIdeal.main_arg7) :=
  Cert.Bridge.StageA.arg7_kept (W0 m ρ c) (R0 m' c) (Z_arg7 m ρ m' hagree c)
theorem A_arg8 : (W3 m ρ c (Proc.devRef .tc Cert.KernelIdeal.main_arg8) : (⟨Cert.KernelIdeal.S40, .f32⟩ : BufTy).Contents (Elt Ideal)) = RA m' c (Proc.devRef .tc Cert.ReferenceIdeal.main_arg8) :=
  Cert.Bridge.StageA.arg8_kept (W0 m ρ c) (R0 m' c) (Z_arg8 m ρ m' hagree c)

/-! ## The first product: the kernel's launch 0 against the reference's `dot_general` -/

/-- Both leave rows times columns of the two operand arrays, on which the programs agree. -/
theorem P1_v31 : (W4 m ρ c (Proc.devRef .tc Cert.KernelIdeal.main_v31) : (⟨Cert.KernelIdeal.S50000x128, .f32⟩ : BufTy).Contents (Elt Ideal)) = R1 m' c (Proc.devRef .tc Cert.ReferenceIdeal.main_v31) := by
  have hK : (W4 m ρ c (Proc.devRef .tc Cert.KernelIdeal.main_v31) : (⟨Cert.KernelIdeal.S50000x128, .f32⟩ : BufTy).Contents (Elt Ideal))
      = rowsByCols (n := 50000) (K := 512) (h := 128) (W3 m ρ c (Proc.devRef .tc Cert.KernelIdeal.main_arg0)) (W3 m ρ c (Proc.devRef .tc Cert.KernelIdeal.main_arg3)) :=
    (W4_arr m ρ c 2).trans (Cert.KernelIdeal.Region0.array_eq (V3 m ρ) c)
  have hR : R1 m' c (Proc.devRef .tc Cert.ReferenceIdeal.main_v31)
      = rowsByCols (n := 50000) (K := 512) (h := 128) (RA m' c (Proc.devRef .tc Cert.ReferenceIdeal.main_arg0)) (RA m' c (Proc.devRef .tc Cert.ReferenceIdeal.main_arg3)) :=
    dot1_result (RA m' c)
  rw [hK, hR, A_arg0 m ρ m' hagree c, A_arg3 m ρ m' hagree c]
theorem P1_v3 : (W4 m ρ c (Proc.devRef .tc Cert.KernelIdeal.main_v3) : (⟨Cert.KernelIdeal.S850000, .i32⟩ : BufTy).Contents (Elt Ideal)) = R1 m' c (Proc.devRef .tc Cert.ReferenceIdeal.main_v3) :=
  (W4_of_ne m ρ c Cert.KernelIdeal.main_v3 (by decide)).trans ((A_v3 m ρ m' hagree c).trans (dot1_keeps (RA m' c) (by decide)).symm)
theorem P1_v6 : (W4 m ρ c (Proc.devRef .tc Cert.KernelIdeal.main_v6) : (⟨Cert.KernelIdeal.S850000, .i32⟩ : BufTy).Contents (Elt Ideal)) = R1 m' c (Proc.devRef .tc Cert.ReferenceIdeal.main_v6) :=
  (W4_of_ne m ρ c Cert.KernelIdeal.main_v6 (by decide)).trans ((A_v6 m ρ m' hagree c).trans (dot1_keeps (RA m' c) (by decide)).symm)
theorem P1_v30 : (W4 m ρ c (Proc.devRef .tc Cert.KernelIdeal.main_v30) : (⟨Cert.KernelIdeal.S850000x1, .f32⟩ : BufTy).Contents (Elt Ideal)) = R1 m' c (Proc.devRef .tc Cert.ReferenceIdeal.main_v30) :=
  (W4_of_ne m ρ c Cert.KernelIdeal.main_v30 (by decide)).trans ((A_v30 m ρ m' hagree c).trans (dot1_keeps (RA m' c) (by decide)).symm)
theorem P1_arg1 : (W4 m ρ c (Proc.devRef .tc Cert.KernelIdeal.main_arg1) : (⟨Cert.KernelIdeal.S50000x512, .f32⟩ : BufTy).Contents (Elt Ideal)) = R1 m' c (Proc.devRef .tc Cert.ReferenceIdeal.main_arg1) :=
  (W4_of_ne m ρ c Cert.KernelIdeal.main_arg1 (by decide)).trans ((A_arg1 m ρ m' hagree c).trans (dot1_keeps (RA m' c) (by decide)).symm)
theorem P1_arg4 : (W4 m ρ c (Proc.devRef .tc Cert.KernelIdeal.main_arg4) : (⟨Cert.KernelIdeal.S128, .f32⟩ : BufTy).Contents (Elt Ideal)) = R1 m' c (Proc.devRef .tc Cert.ReferenceIdeal.main_arg4) :=
  (W4_of_ne m ρ c Cert.KernelIdeal.main_arg4 (by decide)).trans ((A_arg4 m ρ m' hagree c).trans (dot1_keeps (RA m' c) (by decide)).symm)
theorem P1_arg5 : (W4 m ρ c (Proc.devRef .tc Cert.KernelIdeal.main_arg5) : (⟨Cert.KernelIdeal.S512x128, .f32⟩ : BufTy).Contents (Elt Ideal)) = R1 m' c (Proc.devRef .tc Cert.ReferenceIdeal.main_arg5) :=
  (W4_of_ne m ρ c Cert.KernelIdeal.main_arg5 (by decide)).trans ((A_arg5 m ρ m' hagree c).trans (dot1_keeps (RA m' c) (by decide)).symm)
theorem P1_arg6 : (W4 m ρ c (Proc.devRef .tc Cert.KernelIdeal.main_arg6) : (⟨Cert.KernelIdeal.S128, .f32⟩ : BufTy).Contents (Elt Ideal)) = R1 m' c (Proc.devRef .tc Cert.ReferenceIdeal.main_arg6) :=
  (W4_of_ne m ρ c Cert.KernelIdeal.main_arg6 (by decide)).trans ((A_arg6 m ρ m' hagree c).trans (dot1_keeps (RA m' c) (by decide)).symm)
theorem P1_arg7 : (W4 m ρ c (Proc.devRef .tc Cert.KernelIdeal.main_arg7) : (⟨Cert.KernelIdeal.S256x40, .f32⟩ : BufTy).Contents (Elt Ideal)) = R1 m' c (Proc.devRef .tc Cert.ReferenceIdeal.main_arg7) :=
  (W4_of_ne m ρ c Cert.KernelIdeal.main_arg7 (by decide)).trans ((A_arg7 m ρ m' hagree c).trans (dot1_keeps (RA m' c) (by decide)).symm)
theorem P1_arg8 : (W4 m ρ c (Proc.devRef .tc Cert.KernelIdeal.main_arg8) : (⟨Cert.KernelIdeal.S40, .f32⟩ : BufTy).Contents (Elt Ideal)) = R1 m' c (Proc.devRef .tc Cert.ReferenceIdeal.main_arg8) :=
  (W4_of_ne m ρ c Cert.KernelIdeal.main_arg8 (by decide)).trans ((A_arg8 m ρ m' hagree c).trans (dot1_keeps (RA m' c) (by decide)).symm)

/-! ## Between the first and the second product -/

theorem B_v47 : (W6 m ρ c (Proc.devRef .tc Cert.KernelIdeal.main_v47) : (⟨Cert.KernelIdeal.S50000x128, .f32⟩ : BufTy).Contents (Elt Ideal)) = RB m' c (Proc.devRef .tc Cert.ReferenceIdeal.main_v47) :=
  Cert.Bridge.StageB.v47_eq (W4 m ρ c) (R1 m' c) (P1_v31 m ρ m' hagree c) (P1_v3 m ρ m' hagree c) (P1_v6 m ρ m' hagree c) (P1_v30 m ρ m' hagree c) (P1_arg4 m ρ m' hagree c)
theorem B_v3 : (W6 m ρ c (Proc.devRef .tc Cert.KernelIdeal.main_v3) : (⟨Cert.KernelIdeal.S850000, .i32⟩ : BufTy).Contents (Elt Ideal)) = RB m' c (Proc.devRef .tc Cert.ReferenceIdeal.main_v3) :=
  Cert.Bridge.StageB.v3_kept (W4 m ρ c) (R1 m' c) (P1_v3 m ρ m' hagree c)
theorem B_v6 : (W6 m ρ c (Proc.devRef .tc Cert.KernelIdeal.main_v6) : (⟨Cert.KernelIdeal.S850000, .i32⟩ : BufTy).Contents (Elt Ideal)) = RB m' c (Proc.devRef .tc Cert.ReferenceIdeal.main_v6) :=
  Cert.Bridge.StageB.v6_kept (W4 m ρ c) (R1 m' c) (P1_v6 m ρ m' hagree c)
theorem B_v30 : (W6 m ρ c (Proc.devRef .tc Cert.KernelIdeal.main_v30) : (⟨Cert.KernelIdeal.S850000x1, .f32⟩ : BufTy).Contents (Elt Ideal)) = RB m' c (Proc.devRef .tc Cert.ReferenceIdeal.main_v30) :=
  Cert.Bridge.StageB.v30_kept (W4 m ρ c) (R1 m' c) (P1_v30 m ρ m' hagree c)
theorem B_arg1 : (W6 m ρ c (Proc.devRef .tc Cert.KernelIdeal.main_arg1) : (⟨Cert.KernelIdeal.S50000x512, .f32⟩ : BufTy).Contents (Elt Ideal)) = RB m' c (Proc.devRef .tc Cert.ReferenceIdeal.main_arg1) :=
  Cert.Bridge.StageB.arg1_kept (W4 m ρ c) (R1 m' c) (P1_arg1 m ρ m' hagree c)
theorem B_arg5 : (W6 m ρ c (Proc.devRef .tc Cert.KernelIdeal.main_arg5) : (⟨Cert.KernelIdeal.S512x128, .f32⟩ : BufTy).Contents (Elt Ideal)) = RB m' c (Proc.devRef .tc Cert.ReferenceIdeal.main_arg5) :=
  Cert.Bridge.StageB.arg5_kept (W4 m ρ c) (R1 m' c) (P1_arg5 m ρ m' hagree c)
theorem B_arg6 : (W6 m ρ c (Proc.devRef .tc Cert.KernelIdeal.main_arg6) : (⟨Cert.KernelIdeal.S128, .f32⟩ : BufTy).Contents (Elt Ideal)) = RB m' c (Proc.devRef .tc Cert.ReferenceIdeal.main_arg6) :=
  Cert.Bridge.StageB.arg6_kept (W4 m ρ c) (R1 m' c) (P1_arg6 m ρ m' hagree c)
theorem B_arg7 : (W6 m ρ c (Proc.devRef .tc Cert.KernelIdeal.main_arg7) : (⟨Cert.KernelIdeal.S256x40, .f32⟩ : BufTy).Contents (Elt Ideal)) = RB m' c (Proc.devRef .tc Cert.ReferenceIdeal.main_arg7) :=
  Cert.Bridge.StageB.arg7_kept (W4 m ρ c) (R1 m' c) (P1_arg7 m ρ m' hagree c)
theorem B_arg8 : (W6 m ρ c (Proc.devRef .tc Cert.KernelIdeal.main_arg8) : (⟨Cert.KernelIdeal.S40, .f32⟩ : BufTy).Contents (Elt Ideal)) = RB m' c (Proc.devRef .tc Cert.ReferenceIdeal.main_arg8) :=
  Cert.Bridge.StageB.arg8_kept (W4 m ρ c) (R1 m' c) (P1_arg8 m ρ m' hagree c)

/-! ## The second product: the kernel's launch 1 against the reference's `dot_general` -/

/-- Both leave rows times columns of the two operand arrays, on which the programs agree. -/
theorem P2_v48 : (W7 m ρ c (Proc.devRef .tc Cert.KernelIdeal.main_v48) : (⟨Cert.KernelIdeal.S50000x128, .f32⟩ : BufTy).Contents (Elt Ideal)) = R2 m' c (Proc.devRef .tc Cert.ReferenceIdeal.main_v48) := by
  have hK : (W7 m ρ c (Proc.devRef .tc Cert.KernelIdeal.main_v48) : (⟨Cert.KernelIdeal.S50000x128, .f32⟩ : BufTy).Contents (Elt Ideal))
      = rowsByCols (n := 50000) (K := 512) (h := 128) (W6 m ρ c (Proc.devRef .tc Cert.KernelIdeal.main_arg1)) (W6 m ρ c (Proc.devRef .tc Cert.KernelIdeal.main_arg5)) :=
    (W7_arr m ρ c 2).trans (Cert.KernelIdeal.Region1.array_eq (V6 m ρ) c)
  have hR : R2 m' c (Proc.devRef .tc Cert.ReferenceIdeal.main_v48)
      = rowsByCols (n := 50000) (K := 512) (h := 128) (RB m' c (Proc.devRef .tc Cert.ReferenceIdeal.main_arg1)) (RB m' c (Proc.devRef .tc Cert.ReferenceIdeal.main_arg5)) :=
    dot2_result (RB m' c)
  rw [hK, hR, B_arg1 m ρ m' hagree c, B_arg5 m ρ m' hagree c]
theorem P2_v47 : (W7 m ρ c (Proc.devRef .tc Cert.KernelIdeal.main_v47) : (⟨Cert.KernelIdeal.S50000x128, .f32⟩ : BufTy).Contents (Elt Ideal)) = R2 m' c (Proc.devRef .tc Cert.ReferenceIdeal.main_v47) :=
  (W7_of_ne m ρ c Cert.KernelIdeal.main_v47 (by decide)).trans ((B_v47 m ρ m' hagree c).trans (dot2_keeps (RB m' c) (by decide)).symm)
theorem P2_v3 : (W7 m ρ c (Proc.devRef .tc Cert.KernelIdeal.main_v3) : (⟨Cert.KernelIdeal.S850000, .i32⟩ : BufTy).Contents (Elt Ideal)) = R2 m' c (Proc.devRef .tc Cert.ReferenceIdeal.main_v3) :=
  (W7_of_ne m ρ c Cert.KernelIdeal.main_v3 (by decide)).trans ((B_v3 m ρ m' hagree c).trans (dot2_keeps (RB m' c) (by decide)).symm)
theorem P2_v6 : (W7 m ρ c (Proc.devRef .tc Cert.KernelIdeal.main_v6) : (⟨Cert.KernelIdeal.S850000, .i32⟩ : BufTy).Contents (Elt Ideal)) = R2 m' c (Proc.devRef .tc Cert.ReferenceIdeal.main_v6) :=
  (W7_of_ne m ρ c Cert.KernelIdeal.main_v6 (by decide)).trans ((B_v6 m ρ m' hagree c).trans (dot2_keeps (RB m' c) (by decide)).symm)
theorem P2_v30 : (W7 m ρ c (Proc.devRef .tc Cert.KernelIdeal.main_v30) : (⟨Cert.KernelIdeal.S850000x1, .f32⟩ : BufTy).Contents (Elt Ideal)) = R2 m' c (Proc.devRef .tc Cert.ReferenceIdeal.main_v30) :=
  (W7_of_ne m ρ c Cert.KernelIdeal.main_v30 (by decide)).trans ((B_v30 m ρ m' hagree c).trans (dot2_keeps (RB m' c) (by decide)).symm)
theorem P2_arg6 : (W7 m ρ c (Proc.devRef .tc Cert.KernelIdeal.main_arg6) : (⟨Cert.KernelIdeal.S128, .f32⟩ : BufTy).Contents (Elt Ideal)) = R2 m' c (Proc.devRef .tc Cert.ReferenceIdeal.main_arg6) :=
  (W7_of_ne m ρ c Cert.KernelIdeal.main_arg6 (by decide)).trans ((B_arg6 m ρ m' hagree c).trans (dot2_keeps (RB m' c) (by decide)).symm)
theorem P2_arg7 : (W7 m ρ c (Proc.devRef .tc Cert.KernelIdeal.main_arg7) : (⟨Cert.KernelIdeal.S256x40, .f32⟩ : BufTy).Contents (Elt Ideal)) = R2 m' c (Proc.devRef .tc Cert.ReferenceIdeal.main_arg7) :=
  (W7_of_ne m ρ c Cert.KernelIdeal.main_arg7 (by decide)).trans ((B_arg7 m ρ m' hagree c).trans (dot2_keeps (RB m' c) (by decide)).symm)
theorem P2_arg8 : (W7 m ρ c (Proc.devRef .tc Cert.KernelIdeal.main_arg8) : (⟨Cert.KernelIdeal.S40, .f32⟩ : BufTy).Contents (Elt Ideal)) = R2 m' c (Proc.devRef .tc Cert.ReferenceIdeal.main_arg8) :=
  (W7_of_ne m ρ c Cert.KernelIdeal.main_arg8 (by decide)).trans ((B_arg8 m ρ m' hagree c).trans (dot2_keeps (RB m' c) (by decide)).symm)

/-! ## Between the second and the third product -/

theorem C_v65 : (W10 m ρ c (Proc.devRef .tc Cert.KernelIdeal.main_v65) : (⟨Cert.KernelIdeal.S50000x256, .f32⟩ : BufTy).Contents (Elt Ideal)) = RC m' c (Proc.devRef .tc Cert.ReferenceIdeal.main_v65) :=
  Cert.Bridge.StageC.v65_eq (W7 m ρ c) (R2 m' c) (P2_v48 m ρ m' hagree c) (P2_v3 m ρ m' hagree c) (P2_v6 m ρ m' hagree c) (P2_v30 m ρ m' hagree c) (P2_arg6 m ρ m' hagree c) (P2_v47 m ρ m' hagree c)
theorem C_v3 : (W10 m ρ c (Proc.devRef .tc Cert.KernelIdeal.main_v3) : (⟨Cert.KernelIdeal.S850000, .i32⟩ : BufTy).Contents (Elt Ideal)) = RC m' c (Proc.devRef .tc Cert.ReferenceIdeal.main_v3) :=
  Cert.Bridge.StageC.v3_kept (W7 m ρ c) (R2 m' c) (P2_v3 m ρ m' hagree c)
theorem C_v6 : (W10 m ρ c (Proc.devRef .tc Cert.KernelIdeal.main_v6) : (⟨Cert.KernelIdeal.S850000, .i32⟩ : BufTy).Contents (Elt Ideal)) = RC m' c (Proc.devRef .tc Cert.ReferenceIdeal.main_v6) :=
  Cert.Bridge.StageC.v6_kept (W7 m ρ c) (R2 m' c) (P2_v6 m ρ m' hagree c)
theorem C_v30 : (W10 m ρ c (Proc.devRef .tc Cert.KernelIdeal.main_v30) : (⟨Cert.KernelIdeal.S850000x1, .f32⟩ : BufTy).Contents (Elt Ideal)) = RC m' c (Proc.devRef .tc Cert.ReferenceIdeal.main_v30) :=
  Cert.Bridge.StageC.v30_kept (W7 m ρ c) (R2 m' c) (P2_v30 m ρ m' hagree c)
theorem C_arg7 : (W10 m ρ c (Proc.devRef .tc Cert.KernelIdeal.main_arg7) : (⟨Cert.KernelIdeal.S256x40, .f32⟩ : BufTy).Contents (Elt Ideal)) = RC m' c (Proc.devRef .tc Cert.ReferenceIdeal.main_arg7) :=
  Cert.Bridge.StageC.arg7_kept (W7 m ρ c) (R2 m' c) (P2_arg7 m ρ m' hagree c)
theorem C_arg8 : (W10 m ρ c (Proc.devRef .tc Cert.KernelIdeal.main_arg8) : (⟨Cert.KernelIdeal.S40, .f32⟩ : BufTy).Contents (Elt Ideal)) = RC m' c (Proc.devRef .tc Cert.ReferenceIdeal.main_arg8) :=
  Cert.Bridge.StageC.arg8_kept (W7 m ρ c) (R2 m' c) (P2_arg8 m ρ m' hagree c)

/-! ## The third product: the kernel's launch 2 against the reference's `dot_general` -/

/-- Both leave rows times columns of the two operand arrays, on which the programs agree. -/
theorem P3_v66 : (W11 m ρ c (Proc.devRef .tc Cert.KernelIdeal.main_v66) : (⟨Cert.KernelIdeal.S50000x40, .f32⟩ : BufTy).Contents (Elt Ideal)) = R3 m' c (Proc.devRef .tc Cert.ReferenceIdeal.main_v66) := by
  have hK : (W11 m ρ c (Proc.devRef .tc Cert.KernelIdeal.main_v66) : (⟨Cert.KernelIdeal.S50000x40, .f32⟩ : BufTy).Contents (Elt Ideal))
      = rowsByCols (n := 50000) (K := 256) (h := 40) (W10 m ρ c (Proc.devRef .tc Cert.KernelIdeal.main_v65)) (W10 m ρ c (Proc.devRef .tc Cert.KernelIdeal.main_arg7)) :=
    (W11_arr m ρ c 2).trans (Cert.KernelIdeal.Region2.array_eq (V10 m ρ) c)
  have hR : R3 m' c (Proc.devRef .tc Cert.ReferenceIdeal.main_v66)
      = rowsByCols (n := 50000) (K := 256) (h := 40) (RC m' c (Proc.devRef .tc Cert.ReferenceIdeal.main_v65)) (RC m' c (Proc.devRef .tc Cert.ReferenceIdeal.main_arg7)) :=
    dot3_result (RC m' c)
  rw [hK, hR, C_v65 m ρ m' hagree c, C_arg7 m ρ m' hagree c]
theorem P3_v3 : (W11 m ρ c (Proc.devRef .tc Cert.KernelIdeal.main_v3) : (⟨Cert.KernelIdeal.S850000, .i32⟩ : BufTy).Contents (Elt Ideal)) = R3 m' c (Proc.devRef .tc Cert.ReferenceIdeal.main_v3) :=
  (W11_of_ne m ρ c Cert.KernelIdeal.main_v3 (by decide)).trans ((C_v3 m ρ m' hagree c).trans (dot3_keeps (RC m' c) (by decide)).symm)
theorem P3_v6 : (W11 m ρ c (Proc.devRef .tc Cert.KernelIdeal.main_v6) : (⟨Cert.KernelIdeal.S850000, .i32⟩ : BufTy).Contents (Elt Ideal)) = R3 m' c (Proc.devRef .tc Cert.ReferenceIdeal.main_v6) :=
  (W11_of_ne m ρ c Cert.KernelIdeal.main_v6 (by decide)).trans ((C_v6 m ρ m' hagree c).trans (dot3_keeps (RC m' c) (by decide)).symm)
theorem P3_v30 : (W11 m ρ c (Proc.devRef .tc Cert.KernelIdeal.main_v30) : (⟨Cert.KernelIdeal.S850000x1, .f32⟩ : BufTy).Contents (Elt Ideal)) = R3 m' c (Proc.devRef .tc Cert.ReferenceIdeal.main_v30) :=
  (W11_of_ne m ρ c Cert.KernelIdeal.main_v30 (by decide)).trans ((C_v30 m ρ m' hagree c).trans (dot3_keeps (RC m' c) (by decide)).symm)
theorem P3_arg8 : (W11 m ρ c (Proc.devRef .tc Cert.KernelIdeal.main_arg8) : (⟨Cert.KernelIdeal.S40, .f32⟩ : BufTy).Contents (Elt Ideal)) = R3 m' c (Proc.devRef .tc Cert.ReferenceIdeal.main_arg8) :=
  (W11_of_ne m ρ c Cert.KernelIdeal.main_arg8 (by decide)).trans ((C_arg8 m ρ m' hagree c).trans (dot3_keeps (RC m' c) (by decide)).symm)

/-! ## After the third product: the result -/

theorem D_v82 : (W13 m ρ c (Proc.devRef .tc Cert.KernelIdeal.main_v82) : (⟨Cert.KernelIdeal.S50000x40, .f32⟩ : BufTy).Contents (Elt Ideal)) = RD m' c (Proc.devRef .tc Cert.ReferenceIdeal.main_v82) :=
  Cert.Bridge.StageD.v82_eq (W11 m ρ c) (R3 m' c) (P3_v66 m ρ m' hagree c) (P3_v3 m ρ m' hagree c) (P3_v6 m ρ m' hagree c) (P3_v30 m ρ m' hagree c) (P3_arg8 m ρ m' hagree c)

/-- THE RESULTS AGREE: the kernel program's result buffer at its last boundary is the reference's result buffer after
    its whole operation list. -/
theorem result_eq : (W13 m ρ c (Proc.devRef .tc Cert.KernelIdeal.main_v82) : (⟨Cert.KernelIdeal.S50000x40, .f32⟩ : BufTy).Contents (Elt Ideal))
    = StableHlo.after Cert.ReferenceIdeal.RefRun.ops (StableHlo.launchContents m' c) (Proc.devRef .tc Cert.ReferenceIdeal.main_v82) :=
  (D_v82 m ρ m' hagree c).trans (congrFun (RD_eq m' c).symm _)

end Cert.Bridge.Chain

end
-- ==== Proof.lean ====
/-
  The certificate: the kernel program, its idealization and the idealized reference each run to the end leaving their
  arguments unchanged; the idealization rewrote nothing; and on the extended reals the idealized kernel program and the
  idealized reference end with the same result.

  The two programs are one two-layer graph convolution with a log-softmax: three times a dense product followed by
  "gather the product's rows by source node, scale by the edge coefficient, add into the destination node's row, add a
  bias". They differ only in how each of the three dense products is computed: the reference by one matrix product, the
  kernel program by a kernel that multiplies 2000 rows at a time (operands rounded to a shorter format on the way in,
  which on the extended reals changes nothing) into a zero accumulator. Each launch leaves the whole product in its
  output array, so the two programs agree buffer by buffer from the launch to the result.
-/
import proofs.«127161_j56642028700085_1_alg».proof.Defs
import proofs.«127161_j56642028700085_1_alg».proof.Proof.Gen.Kernel
import proofs.«127161_j56642028700085_1_alg».proof.Proof.Gen.Kernel.Skeleton
import proofs.«127161_j56642028700085_1_alg».proof.Proof.Gen.Kernel.Launch
import proofs.«127161_j56642028700085_1_alg».proof.Proof.Gen.Kernel.Points
import proofs.«127161_j56642028700085_1_alg».proof.Proof.Gen.Kernel.Frame
import proofs.«127161_j56642028700085_1_alg».proof.Proof.Gen.KernelIdeal
import proofs.«127161_j56642028700085_1_alg».proof.Proof.Gen.KernelIdeal.Skeleton
import proofs.«127161_j56642028700085_1_alg».proof.Proof.Gen.KernelIdeal.Launch
import proofs.«127161_j56642028700085_1_alg».proof.Proof.Gen.KernelIdeal.Points
import proofs.«127161_j56642028700085_1_alg».proof.Proof.Gen.KernelIdeal.Frame
import proofs.«127161_j56642028700085_1_alg».proof.Proof.Gen.ReferenceIdeal
import proofs.«127161_j56642028700085_1_alg».proof.Proof.Gen.Pre_finite_inputs
import proofs.«127161_j56642028700085_1_alg».proof.Proof.KernelRun
import proofs.«127161_j56642028700085_1_alg».proof.Proof.RefRun
import proofs.«127161_j56642028700085_1_alg».proof.Proof.RefKept
import proofs.«127161_j56642028700085_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefKept.arg0_kept (StableHlo.launchContents m c)),
     (h c Cert.ReferenceIdeal.main_arg1).trans (Cert.ReferenceIdeal.RefKept.arg1_kept (StableHlo.launchContents m c)),
     (h c Cert.ReferenceIdeal.main_arg2).trans (Cert.ReferenceIdeal.RefKept.arg2_kept (StableHlo.launchContents m c)),
     (h c Cert.ReferenceIdeal.main_arg3).trans (Cert.ReferenceIdeal.RefKept.arg3_kept (StableHlo.launchContents m c)),
     (h c Cert.ReferenceIdeal.main_arg4).trans (Cert.ReferenceIdeal.RefKept.arg4_kept (StableHlo.launchContents m c)),
     (h c Cert.ReferenceIdeal.main_arg5).trans (Cert.ReferenceIdeal.RefKept.arg5_kept (StableHlo.launchContents m c)),
     (h c Cert.ReferenceIdeal.main_arg6).trans (Cert.ReferenceIdeal.RefKept.arg6_kept (StableHlo.launchContents m c)),
     (h c Cert.ReferenceIdeal.main_arg7).trans (Cert.ReferenceIdeal.RefKept.arg7_kept (StableHlo.launchContents m c)),
     (h c Cert.ReferenceIdeal.main_arg8).trans (Cert.ReferenceIdeal.RefKept.arg8_kept (StableHlo.launchContents m c))⟩)
    (Cert.ReferenceIdeal.RefRun.run (F := Ideal) m ρ)

/-- The idealization rewrote no operation. -/
theorem preserves : Cert.preserves_Kernel_KernelIdeal := trivial

/-- On the extended reals, from memories agreeing on the arguments, both programs run to the end with the same
    result: the kernel program's result buffer at its last boundary is the reference's result (the chain of
    agreements), and neither program writes an argument. -/
theorem algebraic : Cert.algebraic_KernelIdeal_ReferenceIdeal := by
  intro m ρ m' ρ' _ hagree
  refine ⟨fun c => Cert.KernelIdeal.Gen.W13 m ρ c (Proc.devRef .tc Cert.KernelIdeal.main_v82),
    Cert.KernelIdeal.RunValue.run_result m ρ, ?_⟩
  refine (θ_run Cert.ReferenceIdeal.defs _ _).mono (fun r h c => ?_) (Cert.ReferenceIdeal.RefRun.run (F := Ideal) m' ρ')
  exact ⟨(h c Cert.ReferenceIdeal.main_v82).trans (Cert.Bridge.Chain.result_eq m ρ m' hagree c).symm,
     (h c Cert.ReferenceIdeal.main_arg0).trans (Cert.ReferenceIdeal.RefKept.arg0_kept (StableHlo.launchContents m' c)),
     (h c Cert.ReferenceIdeal.main_arg1).trans (Cert.ReferenceIdeal.RefKept.arg1_kept (StableHlo.launchContents m' c)),
     (h c Cert.ReferenceIdeal.main_arg2).trans (Cert.ReferenceIdeal.RefKept.arg2_kept (StableHlo.launchContents m' c)),
     (h c Cert.ReferenceIdeal.main_arg3).trans (Cert.ReferenceIdeal.RefKept.arg3_kept (StableHlo.launchContents m' c)),
     (h c Cert.ReferenceIdeal.main_arg4).trans (Cert.ReferenceIdeal.RefKept.arg4_kept (StableHlo.launchContents m' c)),
     (h c Cert.ReferenceIdeal.main_arg5).trans (Cert.ReferenceIdeal.RefKept.arg5_kept (StableHlo.launchContents m' c)),
     (h c Cert.ReferenceIdeal.main_arg6).trans (Cert.ReferenceIdeal.RefKept.arg6_kept (StableHlo.launchContents m' c)),
     (h c Cert.ReferenceIdeal.main_arg7).trans (Cert.ReferenceIdeal.RefKept.arg7_kept (StableHlo.launchContents m' c)),
     (h c Cert.ReferenceIdeal.main_arg8).trans (Cert.ReferenceIdeal.RefKept.arg8_kept (StableHlo.launchContents m' c))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
